-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S2x4096x512 .f32) (main_arg1 : FVec F S1536x512 .f32) (main_arg2 : FVec F S512x512 .f32) (main_arg3 : FVec F S512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S512x8x64 : Shape := ⟨3, ![512, 8, 64]⟩
abbrev S8x64x512 : Shape := ⟨3, ![8, 64, 512]⟩
abbrev S2x8x4096x64 : Shape := ⟨4, ![2, 8, 4096, 64]⟩
abbrev S2x8x64x4096 : Shape := ⟨4, ![2, 8, 64, 4096]⟩
abbrev S1x512x512 : Shape := ⟨3, ![1, 512, 512]⟩
abbrev S1x8x512x64 : Shape := ⟨4, ![1, 8, 512, 64]⟩
abbrev S1x8x64x512 : Shape := ⟨4, ![1, 8, 64, 512]⟩
abbrev S512x1536 : Shape := ⟨2, ![512, 1536]⟩
abbrev S8x512x64 : Shape := ⟨3, ![8, 512, 64]⟩
abbrev S1x1x512x64 : Shape := ⟨4, ![1, 1, 512, 64]⟩
abbrev S1x1x64x4096 : Shape := ⟨4, ![1, 1, 64, 4096]⟩
abbrev S1x1x4096x64 : Shape := ⟨4, ![1, 1, 4096, 64]⟩
abbrev S1x64x512 : Shape := ⟨3, ![1, 64, 512]⟩
abbrev S512x64 : Shape := ⟨2, ![512, 64]⟩
abbrev S64x4096 : Shape := ⟨2, ![64, 4096]⟩
abbrev S4096x64 : Shape := ⟨2, ![4096, 64]⟩
abbrev S512x4096 : Shape := ⟨2, ![512, 4096]⟩
abbrev S64x512 : Shape := ⟨2, ![64, 512]⟩
abbrev S1x512 : Shape := ⟨2, ![1, 512]⟩

abbrev nBuf : Space → Nat
  | .hbm => 12
  | .vmem => 21
  | .smem => 0
  | _ => 0

abbrev bufTy : (tb : Table) → Fin (tcTables nBuf tb) → BufTy
  | .hbm, ⟨0, _⟩ => ⟨S2x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S1536x512, .bf16⟩
  | .hbm, ⟨5, _⟩ => ⟨S512x8x64, .f32⟩
  | .hbm, ⟨6, _⟩ => ⟨S8x64x512, .f32⟩
  | .hbm, ⟨7, _⟩ => ⟨S8x64x512, .bf16⟩
  | .hbm, ⟨8, _⟩ => ⟨S2x8x4096x64, .bf16⟩
  | .hbm, ⟨9, _⟩ => ⟨S2x8x64x4096, .bf16⟩
  | .hbm, ⟨10, _⟩ => ⟨S2x8x4096x64, .bf16⟩
  | .hbm, ⟨11, _⟩ => ⟨S2x4096x512, .f32⟩
  | .local _ .vmem, ⟨0, _⟩ => ⟨S1x512x512, .f32⟩
  | .local _ .vmem, ⟨1, _⟩ => ⟨S1x512x512, .f32⟩
  | .local _ .vmem, ⟨2, _⟩ => ⟨S1536x512, .bf16⟩
  | .local _ .vmem, ⟨3, _⟩ => ⟨S1x8x512x64, .bf16⟩
  | .local _ .vmem, ⟨4, _⟩ => ⟨S1x8x512x64, .bf16⟩
  | .local _ .vmem, ⟨5, _⟩ => ⟨S1x8x64x512, .bf16⟩
  | .local _ .vmem, ⟨6, _⟩ => ⟨S1x8x64x512, .bf16⟩
  | .local _ .vmem, ⟨7, _⟩ => ⟨S1x8x512x64, .bf16⟩
  | .local _ .vmem, ⟨8, _⟩ => ⟨S1x8x512x64, .bf16⟩
  | .local _ .vmem, ⟨9, _⟩ => ⟨S1x1x512x64, .bf16⟩
  | .local _ .vmem, ⟨10, _⟩ => ⟨S1x1x512x64, .bf16⟩
  | .local _ .vmem, ⟨11, _⟩ => ⟨S1x1x64x4096, .bf16⟩
  | .local _ .vmem, ⟨12, _⟩ => ⟨S1x1x64x4096, .bf16⟩
  | .local _ .vmem, ⟨13, _⟩ => ⟨S1x1x4096x64, .bf16⟩
  | .local _ .vmem, ⟨14, _⟩ => ⟨S1x1x4096x64, .bf16⟩
  | .local _ .vmem, ⟨15, _⟩ => ⟨S1x64x512, .bf16⟩
  | .local _ .vmem, ⟨16, _⟩ => ⟨S1x64x512, .bf16⟩
  | .local _ .vmem, ⟨17, _⟩ => ⟨S512, .f32⟩
  | .local _ .vmem, ⟨18, _⟩ => ⟨S1x512x512, .f32⟩
  | .local _ .vmem, ⟨19, _⟩ => ⟨S1x512x512, .f32⟩
  | .local _ .vmem, ⟨20, _⟩ => ⟨S512x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 8, 8], ![false, false, false]⟩

def k1_cond2 (i : grid1.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_22 : BitVec 32 := 0#32
  let v25 : BitVec 1 := Scalar.cmpi .ne v24 c0_i32_22
  v25

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x64x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bitsLt_bf16_f32 : FTy.bits .bf16 < FTy.bits .f32
  shapeCasts_S512x512_S512x8x64 : S512x512.ShapeCasts S512x8x64
  transposes_S512x8x64_S8x64x512_1_2_0 : S512x8x64.Transposes [1, 2, 0] S8x64x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  transposes_S1536x512_p1_0_S512x1536 : S1536x512.Transposes [1, 0] S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  transposes_S512x8x64_p1_0_2_S8x512x64 : S512x8x64.Transposes [1, 0, 2] S8x512x64
  transposes_S512x8x64_p1_2_0_S8x64x512 : S512x8x64.Transposes [1, 2, 0] S8x64x512
  inb_S1x8x512x64_S1x8x512x64_0_0_0_0 : ∀ a, (![0, 0, 0, 0] : Fin 4 → Nat) a + S1x8x512x64.size a ≤ S1x8x512x64.size a
  h_S1x8x512x64 : 0 < S1x8x512x64.numel
  shapeCasts_S1x8x512x64_S8x512x64 : S1x8x512x64.ShapeCasts S8x512x64
  shapeCasts_S8x512x64_S1x8x512x64 : S8x512x64.ShapeCasts S1x8x512x64
  packedbf16_S1x8x512x64_S1x8x512x64_0_0_0_0 : (Rect.unit (s := S1x8x512x64) ![0, 0, 0, 0] S1x8x512x64.size inb_S1x8x512x64_S1x8x512x64_0_0_0_0).PackedRows (EltTy.packing .bf16)
  inb_S1x8x64x512_S1x8x64x512_0_0_0_0 : ∀ a, (![0, 0, 0, 0] : Fin 4 → Nat) a + S1x8x64x512.size a ≤ S1x8x64x512.size a
  h_S1x8x64x512 : 0 < S1x8x64x512.numel
  shapeCasts_S1x8x64x512_S8x64x512 : S1x8x64x512.ShapeCasts S8x64x512
  shapeCasts_S8x64x512_S1x8x64x512 : S8x64x512.ShapeCasts S1x8x64x512
  packedbf16_S1x8x64x512_S1x8x64x512_0_0_0_0 : (Rect.unit (s := S1x8x64x512) ![0, 0, 0, 0] S1x8x64x512.size inb_S1x8x64x512_S1x8x64x512_0_0_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x64x4096_S1x1x64x4096_0_0_0_0 : ∀ a, (![0, 0, 0, 0] : Fin 4 → Nat) a + S1x1x64x4096.size a ≤ S1x1x64x4096.size a
  h_S1x1x64x4096 : 0 < S1x1x64x4096.numel
  shapeCasts_S1x1x64x4096_S64x4096 : S1x1x64x4096.ShapeCasts S64x4096
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S1x512x512 : S512x512.ShapeCasts S1x512x512
  dot_S512x512_S512x1536_S512x1536_1_0_0_1_n_n_wf : DotDims.WF S512x512 S512x1536 S512x1536 [1] [0] [0] [1] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x4096x512.size a
  hwx0_0 : ∀ i : grid0.Coords, EltTy.bits .f32 = 32 ∨ (Rect.block (s := S2x4096x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x64.size a ≤ S2x8x4096x64.size a
  hwx0_2 : ∀ i : grid0.Coords, EltTy.bits .bf16 = 32 ∨ (Rect.block (s := S2x8x4096x64) S1x8x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64x512.size a ≤ S2x8x64x4096.size a
  hwx0_3 : ∀ i : grid0.Coords, EltTy.bits .bf16 = 32 ∨ (Rect.block (s := S2x8x64x4096) S1x8x64x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x512x64.size a ≤ S2x8x4096x64.size a
  hwx0_4 : ∀ i : grid0.Coords, EltTy.bits .bf16 = 32 ∨ (Rect.block (s := S2x8x4096x64) S1x8x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x8x4096x64.size a
  hwx1_0 : ∀ i : grid1.Coords, EltTy.bits .bf16 = 32 ∨ (Rect.block (s := S2x8x4096x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x4096.size a ≤ S2x8x64x4096.size a
  hwx1_1 : ∀ i : grid1.Coords, EltTy.bits .bf16 = 32 ∨ (Rect.block (s := S2x8x64x4096) S1x1x64x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096x64.size a ≤ S2x8x4096x64.size a
  hwx1_2 : ∀ i : grid1.Coords, EltTy.bits .bf16 = 32 ∨ (Rect.block (s := S2x8x4096x64) S1x1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x512.size a ≤ S8x64x512.size a
  hwx1_3 : ∀ i : grid1.Coords, EltTy.bits .bf16 = 32 ∨ (Rect.block (s := S8x64x512) S1x64x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x512.size a ≤ S2x4096x512.size a
  hwx1_5 : ∀ i : grid1.Coords, EltTy.bits .f32 = 32 ∨ (Rect.block (s := S2x4096x512) S1x512x512.size (cc1_transform_5 i) (hinb1_5 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x8x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x8x64x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x8x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x1x64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x64x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S2x4096x1536 : Shape := ⟨3, ![2, 4096, 1536]⟩
abbrev S2x4096x8x64 : Shape := ⟨4, ![2, 4096, 8, 64]⟩
abbrev S2x8x4096x64 : Shape := ⟨4, ![2, 8, 4096, 64]⟩
abbrev S_ : Shape := ⟨0, ![]⟩
abbrev S2x8x4096x4096 : Shape := ⟨4, ![2, 8, 4096, 4096]⟩
abbrev S1x1x512 : Shape := ⟨3, ![1, 1, 512]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S2x4096x1536, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S2x4096x8x64, .f32⟩
  | .hbm, ⟨9, _⟩ => ⟨S2x8x4096x64, .f32⟩
  | .hbm, ⟨10, _⟩ => ⟨S2x4096x8x64, .f32⟩
  | .hbm, ⟨11, _⟩ => ⟨S2x8x4096x64, .f32⟩
  | .hbm, ⟨12, _⟩ => ⟨S2x4096x8x64, .f32⟩
  | .hbm, ⟨13, _⟩ => ⟨S2x8x4096x64, .f32⟩
  | .hbm, ⟨14, _⟩ => ⟨S_, .f32⟩
  | .hbm, ⟨15, _⟩ => ⟨S2x8x4096x64, .f32⟩
  | .hbm, ⟨16, _⟩ => ⟨S2x8x4096x64, .f32⟩
  | .hbm, ⟨17, _⟩ => ⟨S2x8x4096x4096, .f32⟩
  | .hbm, ⟨18, _⟩ => ⟨S_, .f32⟩
  | .hbm, ⟨19, _⟩ => ⟨S2x8x4096x4096, .f32⟩
  | .hbm, ⟨20, _⟩ => ⟨S2x8x4096x4096, .f32⟩
  | .hbm, ⟨21, _⟩ => ⟨S2x8x4096x64, .f32⟩
  | .hbm, ⟨22, _⟩ => ⟨S2x4096x8x64, .f32⟩
  | .hbm, ⟨23, _⟩ => ⟨S2x4096x512, .f32⟩
  | .hbm, ⟨24, _⟩ => ⟨S2x4096x512, .f32⟩
  | .hbm, ⟨25, _⟩ => ⟨S1x1x512, .f32⟩
  | .hbm, ⟨26, _⟩ => ⟨S2x4096x512, .f32⟩
  | .hbm, ⟨27, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  slices_S2x4096x1536_S2x4096x512_0_0_0 : S2x4096x1536.Slices ![0, 0, 0] S2x4096x512
  slices_S2x4096x1536_S2x4096x512_0_0_512 : S2x4096x1536.Slices ![0, 0, 512] S2x4096x512
  slices_S2x4096x1536_S2x4096x512_0_0_1024 : S2x4096x1536.Slices ![0, 0, 1024] S2x4096x512
  shapeCasts_S2x4096x512_S2x4096x8x64 : S2x4096x512.ShapeCasts S2x4096x8x64
  transposes_S2x4096x8x64_S2x8x4096x64_0_2_1_3 : S2x4096x8x64.Transposes [0, 2, 1, 3] S2x8x4096x64
  bcast_S_S2x8x4096x64 : S_.BroadcastsInDim S2x8x4096x64 (![] : Fin 0 → Fin S2x8x4096x64.rank)
  bcast_S_S2x8x4096x4096 : S_.BroadcastsInDim S2x8x4096x4096 (![] : Fin 0 → Fin S2x8x4096x4096.rank)
  transposes_S2x8x4096x64_S2x4096x8x64_0_2_1_3 : S2x8x4096x64.Transposes [0, 2, 1, 3] S2x4096x8x64
  shapeCasts_S2x4096x8x64_S2x4096x512 : S2x4096x8x64.ShapeCasts S2x4096x512
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  dot_S2x4096x512_S1536x512_S2x4096x1536_2_1_01_0_n_n_wf : DotDims.WF S2x4096x512 S1536x512 S2x4096x1536 [2] [1] [0, 1] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]
  dot_S2x4096x512_S512x512_S2x4096x512_2_1_01_0_n_n_wf : DotDims.WF S2x4096x512 S512x512 S2x4096x512 [2] [1] [0, 1] [0] [] []

variable [Facts₀]

def dot_S2x4096x512_S1536x512_S2x4096x1536_2_1_01_0_n_n : DotDims S2x4096x512 S1536x512 S2x4096x1536 where
  lhsContracting := [2]
  rhsContracting := [1]
  lhsNonContracting := [0, 1]
  rhsNonContracting := [0]
  lhsBatch := []
  rhsBatch := []
  wf := dot_S2x4096x512_S1536x512_S2x4096x1536_2_1_01_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf
def dot_S2x4096x512_S512x512_S2x4096x512_2_1_01_0_n_n : DotDims S2x4096x512 S512x512 S2x4096x512 where
  lhsContracting := [2]
  rhsContracting := [1]
  lhsNonContracting := [0, 1]
  rhsNonContracting := [0]
  lhsBatch := []
  rhsBatch := []
  wf := dot_S2x4096x512_S512x512_S2x4096x512_2_1_01_0_n_n_wf

class Facts : Prop extends Facts₀ where

variable [Facts]
-- ==== Proof.K.Region0.lean ====
/-
  The first kernel of the program (the stacked projection x · Wᵀ, split into heads), as the pipeline runs it.

  At every grid point (batch b, token tile n) the body reads its two input blocks — the 512 tokens of the tile and the
  whole stacked projection matrix — and stores one block into each of its three outputs: the scaled queries and the
  values of the tile, per head, as [8, 512, 64], and the keys as [8, 64, 512] (lane before token). Each stored block is a
  pure function of the two input blocks; nothing is kept between points. So after the body each output's staging buffer
  holds that function of the point's input blocks, and each input's buffer still holds its block: this is the proof data
  of the pipeline, and the body's triple says the printed body establishes it from any contents of the output buffers.
  Everything is stated at a parameter `V`: the contents of the core's buffers when the region is entered.
-/
import proofs.«154504_j19542101197412_2_alg».proof.Proof.Gen.Kernel.Launch
import proofs.«154504_j19542101197412_2_alg».proof.Proof.Gen.Kernel.Skeleton
import proofs.«154504_j19542101197412_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token tile's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projection matrix's staging buffer holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S1x512x512 := Rect.unit (s := S1x512x512) ![0, 0, 0] S1x512x512.size inb_S1x512x512_S1x512x512_0_0_0
abbrev rw0 : Rect S1536x512 := Rect.unit (s := S1536x512) ![0, 0] S1536x512.size inb_S1536x512_S1536x512_0_0
abbrev rq0 : Rect S1x8x512x64 := Rect.unit (s := S1x8x512x64) ![0, 0, 0, 0] S1x8x512x64.size inb_S1x8x512x64_S1x8x512x64_0_0_0_0
abbrev rk0 : Rect S1x8x64x512 := Rect.unit (s := S1x8x64x512) ![0, 0, 0, 0] S1x8x64x512.size inb_S1x8x64x512_S1x8x64x512_0_0_0_0

/-! ## What the body leaves in each output's buffer -/

/-- The queries' buffer after the body: its one store, of the scaled head-split projection of the two input blocks. -/
def out0_2 (x0 : Vec F S1x512x512 .f32) (x1 : Vec F S1536x512 .bf16) : Vec F S1x8x512x64 .bf16 :=
  View.canon [⟨rq0, k0_pay2 (View.ld x0 rx0) (View.ld x1 rw0)⟩]
/-- The keys' buffer after the body. -/
def out0_3 (x0 : Vec F S1x512x512 .f32) (x1 : Vec F S1536x512 .bf16) : Vec F S1x8x64x512 .bf16 :=
  View.canon [⟨rk0, k0_pay3 (View.ld x0 rx0) (View.ld x1 rw0)⟩]
/-- The values' buffer after the body. -/
def out0_4 (x0 : Vec F S1x512x512 .f32) (x1 : Vec F S1536x512 .bf16) : Vec F S1x8x512x64 .bf16 :=
  View.canon [⟨rq0, k0_pay4 (View.ld x0 rx0) (View.ld x1 rw0)⟩]

/-- One store of the whole buffer covers it. -/
theorem cover0_q (p0 : Vec F S1x8x512x64 .bf16) (y : S1x8x512x64.Idx) :
    ∃ pc ∈ ([⟨rq0, p0⟩] : List (View.Piece (Elt F) S1x8x512x64 .bf16)), y ∈ pc.1.set :=
  View.cover_of_tiled [⟨rq0, p0⟩] S1x8x512x64.size (by rfl) y
theorem cover0_k (p0 : Vec F S1x8x64x512 .bf16) (y : S1x8x64x512.Idx) :
    ∃ pc ∈ ([⟨rk0, p0⟩] : List (View.Piece (Elt F) S1x8x64x512 .bf16)), y ∈ pc.1.set :=
  View.cover_of_tiled [⟨rk0, p0⟩] S1x8x64x512.size (by rfl) y

/-! ## The body's triple -/

set_option maxHeartbeats 1000000 in
/-- On whole staging memrefs, the inputs' at contents `x0`, `x1` and the outputs' at anything, the body runs to the
    continuation holding the inputs' as they were and each output's at its function of the inputs. -/
theorem sound_kernel0 (c : Dev nD) (E : Set ℕ) (i : grid0.Coords)
    (arg2 : Memref sig .tc .vmem S1x512x512 .f32) (harg2 : arg2.IsWhole) (arg3 : Memref sig .tc .vmem S1536x512 .bf16) (harg3 : arg3.IsWhole)
    (arg4 : Memref sig .tc .vmem S1x8x512x64 .bf16) (harg4 : arg4.IsWhole) (arg5 : Memref sig .tc .vmem S1x8x64x512 .bf16) (harg5 : arg5.IsWhole)
    (arg6 : Memref sig .tc .vmem S1x8x512x64 .bf16) (harg6 : arg6.IsWhole)
    (x0 : Vec F S1x512x512 .f32) (x1 : Vec F S1536x512 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_q _)
  isplitl [H3]
  · iexists _; isplitr
    swap; · iexact H3
    ipureintro
    exact View.read_writes_eq_canon _ _ _ (cover0_k _)
  iexists _; isplitr
  swap; · iexact H4
  ipureintro
  exact View.read_writes_eq_canon _ _ _ (cover0_q _)

/-! ## The pipeline's proof data -/

/-- The arrays as the region finds them; after the body at point `t` each input's buffer at its block and each output's
    at its function of the point's two input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1Base.lean ====
import proofs.«154504_j19542101197412_2_alg».proof.Proof.Gen.Kernel.Launch
import proofs.«154504_j19542101197412_2_alg».proof.Proof.Gen.Kernel.Skeleton
import proofs.«154504_j19542101197412_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved;
    the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved;
    the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved;
    the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved;
    the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved;
    the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional, from the grid coordinates: the last coordinate (the head) is 0. -/
abbrev cond1_0 (i : grid1.Coords) : Prop := (Scalar.cmpi .ne (Scalar.extui (Scalar.cmpi .eq (BitVec.ofNat 32 (i 2).val) 0#32)) 0#32) = 1#1
/-- It holds at the points ≡ 0 (mod 8): decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional, from the grid coordinates: the last coordinate is 7. -/
abbrev cond1_1 (i : grid1.Coords) : Prop := k1_cond2 i = 1#1
/-- It holds at the points ≡ 7 (mod 8): decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A the configuration calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the configuration calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the configuration calls output 5 live: the case stores into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of output window 5, through which its contents are stated (the choice does not matter). -/
abbrev VO1_5 : View sig .tc .vmem S1x512x512 .f32 := (Memref.whole cc1_stg5_0 : Memref sig .tc .vmem S1x512x512 .f32).view
/-- Each window's current staging memref at point `t`, spelled as the pipeline passes it, and its wholeness. -/
abbrev ms1_0 (t : Fin cfg1.N) : Memref sig .tc .vmem S1x1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x64x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4096x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x512 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S512x512 .f32 := Memref.whole cc1_scratch0
/-- The scratch the kernel carries between points, as a view: what it holds is stated through it. -/
abbrev VS1_0 : View sig .tc .vmem S512x512 .f32 := scM1_0.view

/-- The region invariant of the class with the scratch operand as a memref owned at some contents; the nine staging
    buffers of the other region stay whole at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Fr

end
-- ==== Proof.K.Region1RunA.lean ====
import proofs.«154504_j19542101197412_2_alg».proof.Proof.K.Region1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in the case
    of the first conditional taken, the second not (the head coordinate is 0): the scratch is found at anything, zeroed, then accumulated into; the output's buffer is handed back untouched.
    With the proof that on whole memrefs, the inputs' at their contents, the body runs to the continuation holding
    the inputs' as they were, the scratch with its pieces written. -/
noncomputable def kernelRun1_A (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) :
    Σ' (L5 : List (View.Piece (Elt F) S1x512x512 .f32)), { LS0 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨[], ?_, fun xi5 E K => ?run⟩
  case run =>
    simp only [cc1__attn_outproj_kernel_eq_skeleton]; unfold cc1__attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.Region1RunB.lean ====
import proofs.«154504_j19542101197412_2_alg».proof.Proof.K.Region1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in the case
    of neither conditional taken (the head coordinate is strictly between 0 and 7): the scratch is found at what the point before left and accumulated into; the output's buffer is handed back untouched.
    With the proof that on whole memrefs, the inputs' at their contents, the body runs to the continuation holding
    the inputs' as they were, the scratch with its pieces written. -/
noncomputable def kernelRun1_B (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) :
    Σ' (L5 : List (View.Piece (Elt F) S1x512x512 .f32)), { LS0 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨[], ?_, fun xi5 E K => ?run⟩
  case run =>
    simp only [cc1__attn_outproj_kernel_eq_skeleton]; unfold cc1__attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.Region1RunC.lean ====
import proofs.«154504_j19542101197412_2_alg».proof.Proof.K.Region1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in the case
    of the first conditional not taken, the second taken (the head coordinate is 7): the scratch is found at what the point before left and accumulated into, then the scratch plus the bias row is stored over the output's buffer.
    With the proof that on whole memrefs, the inputs' at their contents, the body runs to the continuation holding
    the inputs' as they were, the scratch with its pieces written and the output's buffer with its pieces written. -/
noncomputable def kernelRun1_C (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) :
    Σ' (L5 : List (View.Piece (Elt F) S1x512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨?_, ?_, fun E K => ?run⟩
  case run =>
    simp only [cc1__attn_outproj_kernel_eq_skeleton]; unfold cc1__attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.K.Region1.lean ====
import proofs.«154504_j19542101197412_2_alg».proof.Proof.K.Region1RunA
import proofs.«154504_j19542101197412_2_alg».proof.Proof.K.Region1RunB
import proofs.«154504_j19542101197412_2_alg».proof.Proof.K.Region1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 5 (the window is idle at its points and not written back there): no pieces;
    a placeholder that nothing consults. -/
def out1_A_5 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) : Vec F S1x512x512 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's pieces for the scratch, which the body carries between points, cover it. -/
theorem scover1_A_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (y : S512x512.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x512.size (by sl_kernel_rfl) y

/-- What case A leaves in the scratch: its pieces read back over junk. -/
def sout1_A_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) : Vec F S512x512 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B stores nothing into output 5 (the window is idle at its points and not written back there): no pieces;
    a placeholder that nothing consults. -/
def out1_B_5 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) : Vec F S1x512x512 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's pieces for the scratch, which the body carries between points, cover it. -/
theorem scover1_B_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) (y : S512x512.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x512.size (by sl_kernel_rfl) y

/-- What case B leaves in the scratch: its pieces read back over junk. -/
def sout1_B_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) : Vec F S512x512 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's pieces for output 5 tile its block (one whole store), so they cover it. -/
theorem cover1_C_5 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) (y : S1x512x512.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x512.size (by sl_kernel_rfl) y

/-- What case C leaves in output 5's staging buffer: its pieces read back over junk. -/
def out1_C_5 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) : Vec F S1x512x512 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's pieces for the scratch, which the body carries between points, cover it. -/
theorem scover1_C_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) (y : S512x512.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x512.size (by sl_kernel_rfl) y

/-- What case C leaves in the scratch: its pieces read back over junk. -/
def sout1_C_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) : Vec F S512x512 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output's buffer and the scratch hold after each point -/

/-- The accumulation. What output 5's staging buffer and the scratch hold after the body at position `n` (a pair: the
    output, then the scratch): the case the closed forms select at `n`, run at the point's memrefs and input blocks,
    the scratch found at what this leaves at `n - 1`. An assignment of the conditions no point meets is no case. -/
def outsAt1 (c : Dev nD) : (n : ℕ) → n < cfg1.N → Vec F S1x512x512 .f32 × Vec F S512x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the scratch being carried between points: before the first point the
    class's (every scoped buffer at anything); afterwards the other region's nine staging buffers at anything, the
    scratch at what the point before left in it, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in;
    the invariant hands the body the scratch at what the point before left (at anything at the first point) and takes
    it back at this point's contents; the other region's staging buffers, the generator register and the core's debts
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, R8, HS0⟩, Hg⟩
  isplitl [R0 R1 R2 R3 R4 R5 R6 R7 R8 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Fr

end
-- ==== Proof.K.Run.lean ====
/-
  The whole program as a run: the four host operations before the kernels, the projection kernel, the attention kernel.

  The contents of the core's buffers at each boundary are a fold from the launch memory: after the host operations;
  then with the first kernel's three output arrays at what its write-backs leave; then with the second kernel's output
  array at what its write-backs leave. Each kernel is a segment entered from every unscoped buffer held at the boundary's
  contents and left at the next boundary's. The run ends with every unscoped buffer at the last contents, from which
  both the unchanged arguments and the result array are read.
-/
import proofs.«154504_j19542101197412_2_alg».proof.Proof.K.Region0
import proofs.«154504_j19542101197412_2_alg».proof.Proof.K.Region1
import proofs.«154504_j19542101197412_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host operations: the first kernel's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the first kernel's exit (the second's entry): its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At the second kernel's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched, and the result is the second kernel's output array -/

/-- No host operation writes an argument. -/
theorem W1_arg (c : Dev nD) (r : Ref sig .tc) (h : r ∉ hostOps0_W) : W1 m c (Proc.devRef .tc r) = m ((c : Thread nD τ).loc r) :=
  (V1_of m c r h).trans rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = m ((c : Thread nD τ).loc main_arg0) := W1_arg m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_arg m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_arg m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 4).trans (((dat1 (E2 m) c).arrAt_in 4 rfl _).trans (A_eq1 (E2 m) c 4))
    _ = W1 m c (Proc.devRef .tc main_arg3) := W2_of_ne m c main_arg3 (by decide)
    _ = m ((c : Thread nD τ).loc main_arg3) := W1_arg m c main_arg3 (by decide)
/-- The result buffer ends at the output array the second kernel's write-backs leave. -/
theorem W3_main_v5 (c : Dev nD) : W3 m c (Proc.devRef .tc main_v5) = (dat1 (E2 m) c).arrAt 5 cfg1.N := W3_arr m c 5

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The projection kernel: entered from every unscoped buffer at `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from every unscoped buffer at `W2`, left at `W3`. Its invariant starts as the scoped
    rest with the generator register and, after the last point, gives them back. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result named: the result buffer ends at the output array the attention kernel's write-backs leave,
    the arguments as launched. -/
theorem run_result : θ_run defs (onTc (τ := τ) (main (F := F))) ⟨m, fun _ => 0, ρ⟩ (fun r => ∀ c : Dev nD,
      r.2.mem ((c.tc : Thread nD τ).loc main_v5) = (dat1 (E2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W3_main_v5 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Fr

end
-- ==== Proof.KI.Region0.lean ====
/-
  The first kernel of the program (the stacked projection x · Wᵀ, split into heads), as the pipeline runs it.

  At every grid point (batch b, token tile n) the body reads its two input blocks — the 512 tokens of the tile and the
  whole stacked projection matrix — and stores one block into each of its three outputs: the scaled queries and the
  values of the tile, per head, as [8, 512, 64], and the keys as [8, 64, 512] (lane before token). Each stored block is a
  pure function of the two input blocks; nothing is kept between points. So after the body each output's staging buffer
  holds that function of the point's input blocks, and each input's buffer still holds its block: this is the proof data
  of the pipeline, and the body's triple says the printed body establishes it from any contents of the output buffers.
  Everything is stated at a parameter `V`: the contents of the core's buffers when the region is entered.
-/
import proofs.«154504_j19542101197412_2_alg».proof.Proof.Gen.KernelIdeal.Launch
import proofs.«154504_j19542101197412_2_alg».proof.Proof.Gen.KernelIdeal.Skeleton
import proofs.«154504_j19542101197412_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token tile's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projection matrix's staging buffer holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S1x512x512 := Rect.unit (s := S1x512x512) ![0, 0, 0] S1x512x512.size inb_S1x512x512_S1x512x512_0_0_0
abbrev rw0 : Rect S1536x512 := Rect.unit (s := S1536x512) ![0, 0] S1536x512.size inb_S1536x512_S1536x512_0_0
abbrev rq0 : Rect S1x8x512x64 := Rect.unit (s := S1x8x512x64) ![0, 0, 0, 0] S1x8x512x64.size inb_S1x8x512x64_S1x8x512x64_0_0_0_0
abbrev rk0 : Rect S1x8x64x512 := Rect.unit (s := S1x8x64x512) ![0, 0, 0, 0] S1x8x64x512.size inb_S1x8x64x512_S1x8x64x512_0_0_0_0

/-! ## What the body leaves in each output's buffer -/

/-- The queries' buffer after the body: its one store, of the scaled head-split projection of the two input blocks. -/
def out0_2 (x0 : Vec F S1x512x512 .f32) (x1 : Vec F S1536x512 .bf16) : Vec F S1x8x512x64 .bf16 :=
  View.canon [⟨rq0, k0_pay2 (View.ld x0 rx0) (View.ld x1 rw0)⟩]
/-- The keys' buffer after the body. -/
def out0_3 (x0 : Vec F S1x512x512 .f32) (x1 : Vec F S1536x512 .bf16) : Vec F S1x8x64x512 .bf16 :=
  View.canon [⟨rk0, k0_pay3 (View.ld x0 rx0) (View.ld x1 rw0)⟩]
/-- The values' buffer after the body. -/
def out0_4 (x0 : Vec F S1x512x512 .f32) (x1 : Vec F S1536x512 .bf16) : Vec F S1x8x512x64 .bf16 :=
  View.canon [⟨rq0, k0_pay4 (View.ld x0 rx0) (View.ld x1 rw0)⟩]

/-- One store of the whole buffer covers it. -/
theorem cover0_q (p0 : Vec F S1x8x512x64 .bf16) (y : S1x8x512x64.Idx) :
    ∃ pc ∈ ([⟨rq0, p0⟩] : List (View.Piece (Elt F) S1x8x512x64 .bf16)), y ∈ pc.1.set :=
  View.cover_of_tiled [⟨rq0, p0⟩] S1x8x512x64.size (by rfl) y
theorem cover0_k (p0 : Vec F S1x8x64x512 .bf16) (y : S1x8x64x512.Idx) :
    ∃ pc ∈ ([⟨rk0, p0⟩] : List (View.Piece (Elt F) S1x8x64x512 .bf16)), y ∈ pc.1.set :=
  View.cover_of_tiled [⟨rk0, p0⟩] S1x8x64x512.size (by rfl) y

/-! ## The body's triple -/

set_option maxHeartbeats 1000000 in
/-- On whole staging memrefs, the inputs' at contents `x0`, `x1` and the outputs' at anything, the body runs to the
    continuation holding the inputs' as they were and each output's at its function of the inputs. -/
theorem sound_kernel0 (c : Dev nD) (E : Set ℕ) (i : grid0.Coords)
    (arg2 : Memref sig .tc .vmem S1x512x512 .f32) (harg2 : arg2.IsWhole) (arg3 : Memref sig .tc .vmem S1536x512 .bf16) (harg3 : arg3.IsWhole)
    (arg4 : Memref sig .tc .vmem S1x8x512x64 .bf16) (harg4 : arg4.IsWhole) (arg5 : Memref sig .tc .vmem S1x8x64x512 .bf16) (harg5 : arg5.IsWhole)
    (arg6 : Memref sig .tc .vmem S1x8x512x64 .bf16) (harg6 : arg6.IsWhole)
    (x0 : Vec F S1x512x512 .f32) (x1 : Vec F S1536x512 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_q _)
  isplitl [H3]
  · iexists _; isplitr
    swap; · iexact H3
    ipureintro
    exact View.read_writes_eq_canon _ _ _ (cover0_k _)
  iexists _; isplitr
  swap; · iexact H4
  ipureintro
  exact View.read_writes_eq_canon _ _ _ (cover0_q _)

/-! ## The pipeline's proof data -/

/-- The arrays as the region finds them; after the body at point `t` each input's buffer at its block and each output's
    at its function of the point's two input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1Base.lean ====
import proofs.«154504_j19542101197412_2_alg».proof.Proof.Gen.KernelIdeal.Launch
import proofs.«154504_j19542101197412_2_alg».proof.Proof.Gen.KernelIdeal.Skeleton
import proofs.«154504_j19542101197412_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved;
    the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved;
    the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved;
    the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved;
    the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved;
    the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional, from the grid coordinates: the last coordinate (the head) is 0. -/
abbrev cond1_0 (i : grid1.Coords) : Prop := (Scalar.cmpi .ne (Scalar.extui (Scalar.cmpi .eq (BitVec.ofNat 32 (i 2).val) 0#32)) 0#32) = 1#1
/-- It holds at the points ≡ 0 (mod 8): decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional, from the grid coordinates: the last coordinate is 7. -/
abbrev cond1_1 (i : grid1.Coords) : Prop := k1_cond2 i = 1#1
/-- It holds at the points ≡ 7 (mod 8): decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A the configuration calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the configuration calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the configuration calls output 5 live: the case stores into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of output window 5, through which its contents are stated (the choice does not matter). -/
abbrev VO1_5 : View sig .tc .vmem S1x512x512 .f32 := (Memref.whole cc1_stg5_0 : Memref sig .tc .vmem S1x512x512 .f32).view
/-- Each window's current staging memref at point `t`, spelled as the pipeline passes it, and its wholeness. -/
abbrev ms1_0 (t : Fin cfg1.N) : Memref sig .tc .vmem S1x1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x64x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4096x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x512 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S512x512 .f32 := Memref.whole cc1_scratch0
/-- The scratch the kernel carries between points, as a view: what it holds is stated through it. -/
abbrev VS1_0 : View sig .tc .vmem S512x512 .f32 := scM1_0.view

/-- The region invariant of the class with the scratch operand as a memref owned at some contents; the nine staging
    buffers of the other region stay whole at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Fr

end
-- ==== Proof.KI.Region1RunA.lean ====
import proofs.«154504_j19542101197412_2_alg».proof.Proof.KI.Region1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in the case
    of the first conditional taken, the second not (the head coordinate is 0): the scratch is found at anything, zeroed, then accumulated into; the output's buffer is handed back untouched.
    With the proof that on whole memrefs, the inputs' at their contents, the body runs to the continuation holding
    the inputs' as they were, the scratch with its pieces written. -/
noncomputable def kernelRun1_A (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) :
    Σ' (L5 : List (View.Piece (Elt F) S1x512x512 .f32)), { LS0 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨[], ?_, fun xi5 E K => ?run⟩
  case run =>
    simp only [cc1__attn_outproj_kernel_eq_skeleton]; unfold cc1__attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.Region1RunB.lean ====
import proofs.«154504_j19542101197412_2_alg».proof.Proof.KI.Region1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in the case
    of neither conditional taken (the head coordinate is strictly between 0 and 7): the scratch is found at what the point before left and accumulated into; the output's buffer is handed back untouched.
    With the proof that on whole memrefs, the inputs' at their contents, the body runs to the continuation holding
    the inputs' as they were, the scratch with its pieces written. -/
noncomputable def kernelRun1_B (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) :
    Σ' (L5 : List (View.Piece (Elt F) S1x512x512 .f32)), { LS0 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨[], ?_, fun xi5 E K => ?run⟩
  case run =>
    simp only [cc1__attn_outproj_kernel_eq_skeleton]; unfold cc1__attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.Region1RunC.lean ====
import proofs.«154504_j19542101197412_2_alg».proof.Proof.KI.Region1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch, as pieces (last first), in the case
    of the first conditional not taken, the second taken (the head coordinate is 7): the scratch is found at what the point before left and accumulated into, then the scratch plus the bias row is stored over the output's buffer.
    With the proof that on whole memrefs, the inputs' at their contents, the body runs to the continuation holding
    the inputs' as they were, the scratch with its pieces written and the output's buffer with its pieces written. -/
noncomputable def kernelRun1_C (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) :
    Σ' (L5 : List (View.Piece (Elt F) S1x512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9) K } := by
  refine ⟨?_, ?_, fun E K => ?run⟩
  case run =>
    simp only [cc1__attn_outproj_kernel_eq_skeleton]; unfold cc1__attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KI.Region1.lean ====
import proofs.«154504_j19542101197412_2_alg».proof.Proof.KI.Region1RunA
import proofs.«154504_j19542101197412_2_alg».proof.Proof.KI.Region1RunB
import proofs.«154504_j19542101197412_2_alg».proof.Proof.KI.Region1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 5 (the window is idle at its points and not written back there): no pieces;
    a placeholder that nothing consults. -/
def out1_A_5 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) : Vec F S1x512x512 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's pieces for the scratch, which the body carries between points, cover it. -/
theorem scover1_A_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (y : S512x512.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x512.size (by sl_kernel_rfl) y

/-- What case A leaves in the scratch: its pieces read back over junk. -/
def sout1_A_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) : Vec F S512x512 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B stores nothing into output 5 (the window is idle at its points and not written back there): no pieces;
    a placeholder that nothing consults. -/
def out1_B_5 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) : Vec F S1x512x512 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's pieces for the scratch, which the body carries between points, cover it. -/
theorem scover1_B_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) (y : S512x512.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x512.size (by sl_kernel_rfl) y

/-- What case B leaves in the scratch: its pieces read back over junk. -/
def sout1_B_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) : Vec F S512x512 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's pieces for output 5 tile its block (one whole store), so they cover it. -/
theorem cover1_C_5 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) (y : S1x512x512.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x512.size (by sl_kernel_rfl) y

/-- What case C leaves in output 5's staging buffer: its pieces read back over junk. -/
def out1_C_5 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) : Vec F S1x512x512 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's pieces for the scratch, which the body carries between points, cover it. -/
theorem scover1_C_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) (y : S512x512.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x512.size (by sl_kernel_rfl) y

/-- What case C leaves in the scratch: its pieces read back over junk. -/
def sout1_C_0 (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) : Vec F S512x512 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output's buffer and the scratch hold after each point -/

/-- The accumulation. What output 5's staging buffer and the scratch hold after the body at position `n` (a pair: the
    output, then the scratch): the case the closed forms select at `n`, run at the point's memrefs and input blocks,
    the scratch found at what this leaves at `n - 1`. An assignment of the conditions no point meets is no case. -/
def outsAt1 (c : Dev nD) : (n : ℕ) → n < cfg1.N → Vec F S1x512x512 .f32 × Vec F S512x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the scratch being carried between points: before the first point the
    class's (every scoped buffer at anything); afterwards the other region's nine staging buffers at anything, the
    scratch at what the point before left in it, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in;
    the invariant hands the body the scratch at what the point before left (at anything at the first point) and takes
    it back at this point's contents; the other region's staging buffers, the generator register and the core's debts
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨R0, R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 R6 R7 R8 HS0 Hg]
        · isplitl [R0 R1 R2 R3 R4 R5 R6 R7 R8 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, R8, HS0⟩, Hg⟩
  isplitl [R0 R1 R2 R3 R4 R5 R6 R7 R8 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Fr

end
-- ==== Proof.KI.Run.lean ====
/-
  The whole program as a run: the four host operations before the kernels, the projection kernel, the attention kernel.

  The contents of the core's buffers at each boundary are a fold from the launch memory: after the host operations;
  then with the first kernel's three output arrays at what its write-backs leave; then with the second kernel's output
  array at what its write-backs leave. Each kernel is a segment entered from every unscoped buffer held at the boundary's
  contents and left at the next boundary's. The run ends with every unscoped buffer at the last contents, from which
  both the unchanged arguments and the result array are read.
-/
import proofs.«154504_j19542101197412_2_alg».proof.Proof.KI.Region0
import proofs.«154504_j19542101197412_2_alg».proof.Proof.KI.Region1
import proofs.«154504_j19542101197412_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host operations: the first kernel's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the first kernel's exit (the second's entry): its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At the second kernel's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched, and the result is the second kernel's output array -/

/-- No host operation writes an argument. -/
theorem W1_arg (c : Dev nD) (r : Ref sig .tc) (h : r ∉ hostOps0_W) : W1 m c (Proc.devRef .tc r) = m ((c : Thread nD τ).loc r) :=
  (V1_of m c r h).trans rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = m ((c : Thread nD τ).loc main_arg0) := W1_arg m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_arg m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_arg m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 4).trans (((dat1 (E2 m) c).arrAt_in 4 rfl _).trans (A_eq1 (E2 m) c 4))
    _ = W1 m c (Proc.devRef .tc main_arg3) := W2_of_ne m c main_arg3 (by decide)
    _ = m ((c : Thread nD τ).loc main_arg3) := W1_arg m c main_arg3 (by decide)
/-- The result buffer ends at the output array the second kernel's write-backs leave. -/
theorem W3_main_v5 (c : Dev nD) : W3 m c (Proc.devRef .tc main_v5) = (dat1 (E2 m) c).arrAt 5 cfg1.N := W3_arr m c 5

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The projection kernel: entered from every unscoped buffer at `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from every unscoped buffer at `W2`, left at `W3`. Its invariant starts as the scoped
    rest with the generator register and, after the last point, gives them back. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result named: the result buffer ends at the output array the attention kernel's write-backs leave,
    the arguments as launched. -/
theorem run_result : θ_run defs (onTc (τ := τ) (main (F := F))) ⟨m, fun _ => 0, ρ⟩ (fun r => ∀ c : Dev nD,
      r.2.mem ((c.tc : Thread nD τ).loc main_v5) = (dat1 (E2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W3_main_v5 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Fr

end
-- ==== Proof.Spec.lean ====
/-
  The function both programs compute, on the extended reals.

  With x : [2, 4096, 512], W : [1536, 512] (the three projection matrices stacked: rows 0..511 the queries',
  512..1023 the keys', 1024..1535 the values'), Wo : [512, 512] and a bias vector of length 512:

    proj s b n e      = Σ_k x[b, n, k] · W[512·s + e, k]
    q[b, h, n, j]     = proj 0 b n (64·h + j) · (1/8)
    k[b, h, m, j]     = proj 1 b m (64·h + j)
    v[b, h, m, j]     = proj 2 b m (64·h + j)
    score[b, h, n, m] = Σ_j q[b, h, n, j] · k[b, h, m, j]
    attn[b, h, n, d]  = Σ_m max(score[b, h, n, m], 0) · v[b, h, m, d]
    head[b, h, n, d]  = Σ_j attn[b, h, n, j] · Wo[d, 64·h + j]
    out[b, n, d]      = (Σ_h head[b, h, n, d]) + bias[d]

  Eight heads of sixty-four lanes each split the 512 features; summing a head's sixty-four terms and then the eight heads
  is the same as summing all 512 features at once (`sum_heads`), which is the only rearrangement between the two programs.
  The constants 1/8 and 0 are kept as the f32 words the programs print, so neither is ever evaluated.
-/
import Idealize.ShloMosaic.PureOps.Ideal
import Idealize.ShloMosaic.Lib.ValueIdx

noncomputable section

open scoped BigOperators

namespace Cert.Attn

open Idealize.ShloMosaic Idealize.ShloMosaic.ValueIdx

/-- The feature index of lane `j` of head `h`: `64·h + j`. -/
def hd (h : Fin 8) (j : Fin 64) : Fin 512 := ⟨64 * h.val + j.val, by omega⟩

/-- Row `512·s + e` of the stacked projection matrix: section `s` (0 queries, 1 keys, 2 values), feature `e`. -/
def sec (s : Fin 3) (e : Fin 512) : Fin 1536 := ⟨512 * s.val + e.val, by omega⟩

theorem hd_val (h : Fin 8) (j : Fin 64) : (hd h j).val = 64 * h.val + j.val := rfl
theorem sec_val (s : Fin 3) (e : Fin 512) : (sec s e).val = 512 * s.val + e.val := rfl

abbrev X : Type := (⟨3, ![2, 4096, 512]⟩ : Shape).Idx → EReal
abbrev Wqkv : Type := (⟨2, ![1536, 512]⟩ : Shape).Idx → EReal
abbrev Wout : Type := (⟨2, ![512, 512]⟩ : Shape).Idx → EReal
abbrev Bias : Type := (⟨1, ![512]⟩ : Shape).Idx → EReal

/-- The query scale 1/8, as the f32 word both programs print. -/
def scale : EReal := Ideal.ofBits .f32 0x3E000000#32
/-- The zero the scores are clamped at, as the f32 word both programs print. -/
def zero : EReal := Ideal.ofBits .f32 0x00000000#32

/-- One entry of the stacked projection `x · Wᵀ`. -/
def proj (x : X) (W : Wqkv) (s : Fin 3) (b : Fin 2) (n : Fin 4096) (e : Fin 512) : EReal :=
  ∑ k : Fin 512, x (ix3 b n k) * W (ix2 (sec s e) k)

/-- Scaled queries, keys and values of head `h`. -/
def qh (x : X) (W : Wqkv) (b : Fin 2) (h : Fin 8) (n : Fin 4096) (j : Fin 64) : EReal := proj x W 0 b n (hd h j) * scale
def kh (x : X) (W : Wqkv) (b : Fin 2) (h : Fin 8) (m : Fin 4096) (j : Fin 64) : EReal := proj x W 1 b m (hd h j)
def vh (x : X) (W : Wqkv) (b : Fin 2) (h : Fin 8) (m : Fin 4096) (j : Fin 64) : EReal := proj x W 2 b m (hd h j)

/-- The score of query token `n` against key token `m` in head `h`. -/
def score (x : X) (W : Wqkv) (b : Fin 2) (h : Fin 8) (n m : Fin 4096) : EReal :=
  ∑ j : Fin 64, qh x W b h n j * kh x W b h m j

/-- The clamped scores applied to the values. -/
def attn (x : X) (W : Wqkv) (b : Fin 2) (h : Fin 8) (n : Fin 4096) (d : Fin 64) : EReal :=
  ∑ m : Fin 4096, max (score x W b h n m) zero * vh x W b h m d

/-- Head `h`'s share of output feature `d`. -/
def headOut (x : X) (W : Wqkv) (Wo : Wout) (b : Fin 2) (h : Fin 8) (n : Fin 4096) (d : Fin 512) : EReal :=
  ∑ j : Fin 64, attn x W b h n j * Wo (ix2 d (hd h j))

/-- The result at coordinates. -/
def outAt (x : X) (W : Wqkv) (Wo : Wout) (bias : Bias) (b : Fin 2) (n : Fin 4096) (d : Fin 512) : EReal :=
  (∑ h : Fin 8, headOut x W Wo b h n d) + bias (ix1 d)

/-- The result array. -/
def G (x : X) (W : Wqkv) (Wo : Wout) (bias : Bias) : X := fun i => outAt x W Wo bias (i 0) (i 1) (i 2)

theorem G_ix3 (x : X) (W : Wqkv) (Wo : Wout) (bias : Bias) (b : Fin 2) (n : Fin 4096) (d : Fin 512) :
    G x W Wo bias (ix3 b n d) = outAt x W Wo bias b n d := rfl

/-- Summing over all 512 features is summing over the eight heads and, within each, its sixty-four lanes. -/
theorem sum_heads {M : Type*} [AddCommMonoid M] (f : Fin 512 → M) :
    ∑ e : Fin 512, f e = ∑ h : Fin 8, ∑ j : Fin 64, f (hd h j) := by
  rw [← Finset.sum_product', Finset.univ_product_univ]
  refine (Fintype.sum_equiv (finProdFinEquiv (m := 8) (n := 64)) _ _ fun p => ?_).symm
  refine congrArg f (Fin.ext ?_)
  simp only [finProdFinEquiv_apply_val, hd_val]
  omega

end Cert.Attn

end
-- ==== Proof.Payload0.lean ====
/-
  The first kernel's stored values, read at coordinates.

  The kernel forms the product x · Wᵀ of a [512, 512] block of tokens with the stacked [1536, 512] projection matrix,
  entry (n, c) being Σ_k x[0, n, k] · W[c, k]. Columns 0..511, 512..1023 and 1024..1535 of the product are the query,
  key and value projections (sections 0, 1, 2 of W's rows). Each is split into 8 heads of 64 lanes (feature 64·h + j is
  lane j of head h) and stored with the heads in front: queries and values as [1, 8, 512, 64] (token before lane),
  keys as [1, 8, 64, 512] (lane before token). The queries are first multiplied by the scale word. The change of format
  to bf16 is the identity on the extended reals, so each stored element is exactly one entry of the product
  (times the scale, for the queries).
-/
import proofs.«154504_j19542101197412_2_alg».proof.Proof.Gen.KernelIdeal.Skeleton
import proofs.«154504_j19542101197412_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! The stacked projection's matrix product: the contraction runs over the 512 input features. -/

abbrev D0 : DotDims S512x512 S512x1536 S512x1536 := dot_S512x512_S512x1536_S512x1536_1_0_0_1_n_n

theorem D0_lhs0 (i : S512x1536.Idx) (q : D0.contr.Idx) : (D0.lhsIdx i q 0).val = (i 0).val := by
  unfold DotDims.lhsIdx
  rw [dif_neg (show ¬(0 : Fin S512x512.rank) ∈ D0.lhsBatch by decide), dif_pos (show (0 : Fin S512x512.rank) ∈ D0.lhsNonContracting by decide)]
  rfl
theorem D0_lhs1 (i : S512x1536.Idx) (q : D0.contr.Idx) : (D0.lhsIdx i q 1).val = (q ⟨0, by decide⟩).val :=
  D0.lhsIdx_val_of_single rfl i q
theorem D0_rhs0 (i : S512x1536.Idx) (q : D0.contr.Idx) : (D0.rhsIdx i q 0).val = (q ⟨0, by decide⟩).val :=
  D0.rhsIdx_val_of_single rfl i q
theorem D0_rhs1 (i : S512x1536.Idx) (q : D0.contr.Idx) : (D0.rhsIdx i q 1).val = (i 1).val := by
  unfold DotDims.rhsIdx
  rw [dif_neg (show ¬(1 : Fin S512x1536.rank) ∈ D0.rhsBatch by decide), dif_pos (show (1 : Fin S512x1536.rank) ∈ D0.rhsNonContracting by decide)]
  rfl

theorem D0_lhsIdx (n : Fin 512) (c : Fin 1536) (k : Fin 512) :
    D0.lhsIdx (ix2 n c) ((contrEquiv1 D0 512 rfl rfl).symm k) = ix2 n k :=
  funext fun a => Fin.ext (by
    match a with
    | ⟨0, _⟩ => exact D0_lhs0 _ _
    | ⟨1, _⟩ => exact (D0_lhs1 _ _).trans (contrEquiv1_symm_val D0 512 rfl rfl k))

theorem D0_rhsIdx (n : Fin 512) (c : Fin 1536) (k : Fin 512) :
    D0.rhsIdx (ix2 n c) ((contrEquiv1 D0 512 rfl rfl).symm k) = ix2 k c :=
  funext fun a => Fin.ext (by
    match a with
    | ⟨0, _⟩ => exact (D0_rhs0 _ _).trans (contrEquiv1_symm_val D0 512 rfl rfl k)
    | ⟨1, _⟩ => exact D0_rhs1 _ _)

/-- Entry (n, c) of x · Wᵀ: the sum over the input features k of x[0, n, k] · W[c, k]. -/
theorem k0_pay1_apply (v0 : Vec Ideal S1x512x512 .f32) (v3 : Vec Ideal S1536x512 .bf16) (n : Fin 512) (c : Fin 1536) :
    k0_pay1 (F := Ideal) v0 v3 (ix2 n c) = ∑ k : Fin 512, v0 (ix3 (0 : Fin 1) n k) * v3 (ix2 c k) := by
  unfold k0_pay1
  refine (Ideal.matmul_constant_zero_apply D0 none _ _ (ix2 n c)).trans ?_
  rw [← Equiv.sum_comp (contrEquiv1 D0 512 rfl rfl).symm]
  refine Finset.sum_congr rfl fun k _ => ?_
  rw [D0_lhsIdx, D0_rhsIdx]
  refine congrArg₂ (· * ·) ?_ ?_
  · exact shapeCast_1ab_ab_apply v0 _ n k
  · refine (transpose_ix2_apply _ _ k c).trans ?_
    rw [shapeCast_self]

/-! The layout steps between the product and the three stored blocks, each read at coordinates. -/

section Layout
variable {α : Type}

/-- Columns 0..511 of the product are section 0 (the queries' rows of W). -/
theorem slice_q_apply (x : S512x1536.Idx → α) (n e : Fin 512) :
    extractStridedSlice S512x512 ![0, 0] x slices_S512x1536_o0_0_S512x512 (ix2 n e) = x (ix2 n (Cert.Attn.sec 0 e)) :=
  slice2_axis1_apply 0 x _ n e _ (by show 512 * 0 + e.val = 0 + e.val; omega)

/-- Columns 512..1023 are section 1 (the keys'). -/
theorem slice_k_apply (x : S512x1536.Idx → α) (n e : Fin 512) :
    extractStridedSlice S512x512 ![0, 512] x slices_S512x1536_o0_512_S512x512 (ix2 n e) = x (ix2 n (Cert.Attn.sec 1 e)) :=
  slice2_axis1_apply 512 x _ n e _ (by show 512 * 1 + e.val = 512 + e.val; omega)

/-- Columns 1024..1535 are section 2 (the values'). -/
theorem slice_v_apply (x : S512x1536.Idx → α) (n e : Fin 512) :
    extractStridedSlice S512x512 ![0, 1024] x slices_S512x1536_o0_1024_S512x512 (ix2 n e) = x (ix2 n (Cert.Attn.sec 2 e)) :=
  slice2_axis1_apply 1024 x _ n e _ (by show 512 * 2 + e.val = 1024 + e.val; omega)

/-- The 512 features split into 8 heads of 64 lanes: entry (n, h, j) is feature 64·h + j of token n. -/
theorem heads_apply (x : S512x512.Idx → α) (n : Fin 512) (h : Fin 8) (j : Fin 64) :
    shapeCast S512x8x64 x shapeCasts_S512x512_S512x8x64 (ix3 n h j) = x (ix2 n (Cert.Attn.hd h j)) :=
  shapeCast_apply x _ _ _ (by
    rw [Shape.rowMajor_val_two, Shape.rowMajor_val_three]
    show n.val * 512 + (64 * h.val + j.val) = (n.val * 8 + h.val) * 64 + j.val
    omega)

/-- Heads to the front: (h, n, j) reads (n, h, j). -/
theorem headsFirst_apply (x : S512x8x64.Idx → α) (h : Fin 8) (n : Fin 512) (j : Fin 64) :
    transpose S8x512x64 [1, 0, 2] x transposes_S512x8x64_p1_0_2_S8x512x64 (ix3 h n j) = x (ix3 n h j) :=
  transpose_apply _ x _ _ _ fun b => match b with | ⟨0, _⟩ => rfl | ⟨1, _⟩ => rfl | ⟨2, _⟩ => rfl

/-- Heads to the front and tokens to the back: (h, j, n) reads (n, h, j). -/
theorem headsFirstTokensLast_apply (x : S512x8x64.Idx → α) (h : Fin 8) (j : Fin 64) (n : Fin 512) :
    transpose S8x64x512 [1, 2, 0] x transposes_S512x8x64_p1_2_0_S8x64x512 (ix3 h j n) = x (ix3 n h j) :=
  transpose_apply _ x _ _ _ fun b => match b with | ⟨0, _⟩ => rfl | ⟨1, _⟩ => rfl | ⟨2, _⟩ => rfl

end Layout

/-- The stored query block: the section-0 projection at feature 64·h + j of token n, times the scale word. -/
theorem k0_pay2_apply (v0 : Vec Ideal S1x512x512 .f32) (v3 : Vec Ideal S1536x512 .bf16) (h : Fin 8) (n : Fin 512) (j : Fin 64) :
    k0_pay2 (F := Ideal) v0 v3 (ix4 (0 : Fin 1) h n j)
      = (∑ k : Fin 512, v0 (ix3 (0 : Fin 1) n k) * v3 (ix2 (Cert.Attn.sec 0 (Cert.Attn.hd h j)) k)) * Ideal.ofBits .f32 0x3E000000#32 := by
  unfold k0_pay2
  refine (shapeCast_abc_1abc_apply _ _ (0 : Fin 1) h n j).trans ?_
  refine (truncf_apply (φ := .f32) (ψ := .bf16) _ bitsLt_bf16_f32 _).trans ?_
  refine (headsFirst_apply _ h n j).trans ?_
  refine (heads_apply _ n h j).trans ?_
  refine congrArg (· * Ideal.ofBits .f32 0x3E000000#32) ?_
  refine (slice_q_apply _ n _).trans ?_
  exact k0_pay1_apply v0 v3 n _

/-- The stored key block, lane before token: the section-1 projection at feature 64·h + j of token n. -/
theorem k0_pay3_apply (v0 : Vec Ideal S1x512x512 .f32) (v3 : Vec Ideal S1536x512 .bf16) (h : Fin 8) (j : Fin 64) (n : Fin 512) :
    k0_pay3 (F := Ideal) v0 v3 (ix4 (0 : Fin 1) h j n)
      = ∑ k : Fin 512, v0 (ix3 (0 : Fin 1) n k) * v3 (ix2 (Cert.Attn.sec 1 (Cert.Attn.hd h j)) k) := by
  unfold k0_pay3
  refine (shapeCast_abc_1abc_apply _ _ (0 : Fin 1) h j n).trans ?_
  refine (truncf_apply (φ := .f32) (ψ := .bf16) _ bitsLt_bf16_f32 _).trans ?_
  refine (headsFirstTokensLast_apply _ h j n).trans ?_
  refine (heads_apply _ n h j).trans ?_
  refine (slice_k_apply _ n _).trans ?_
  exact k0_pay1_apply v0 v3 n _

/-- The stored value block: the section-2 projection at feature 64·h + j of token n. -/
theorem k0_pay4_apply (v0 : Vec Ideal S1x512x512 .f32) (v3 : Vec Ideal S1536x512 .bf16) (h : Fin 8) (n : Fin 512) (j : Fin 64) :
    k0_pay4 (F := Ideal) v0 v3 (ix4 (0 : Fin 1) h n j)
      = ∑ k : Fin 512, v0 (ix3 (0 : Fin 1) n k) * v3 (ix2 (Cert.Attn.sec 2 (Cert.Attn.hd h j)) k) := by
  unfold k0_pay4
  refine (shapeCast_abc_1abc_apply _ _ (0 : Fin 1) h n j).trans ?_
  refine (truncf_apply (φ := .f32) (ψ := .bf16) _ bitsLt_bf16_f32 _).trans ?_
  refine (headsFirst_apply _ h n j).trans ?_
  refine (heads_apply _ n h j).trans ?_
  refine (slice_v_apply _ n _).trans ?_
  exact k0_pay1_apply v0 v3 n _

end Cert.KernelIdeal.Pay

end
-- ==== Proof.Value0.lean ====
/-
  The first kernel's three output arrays, each as one function of the argument arrays.

  The grid has sixteen points: point `t` is batch `t / 8` and token tile `t % 8`. At that point the body reads the 512
  tokens `512·(t % 8) … 512·(t % 8) + 511` of the batch and the whole stacked projection matrix, and stores, for every
  head, the scaled queries and the values of those tokens as a block [1, 8, 512, 64] and their keys as a block
  [1, 8, 64, 512]. The block written back sits in the array at batch `t / 8` and tokens from `512·(t % 8)` on — along the
  third axis for queries and values, along the fourth for the keys — so what point `t` writes back is block `t` of the
  array of all scaled queries (keys, values) `Qarr` (`Karr`, `Varr`). Token `n` of batch `b` lies in the block of point
  `8·b + n / 512`: the sixteen blocks cover each array, and each array ends holding its function.
-/
import proofs.«154504_j19542101197412_2_alg».proof.Proof.KI.Region0
import proofs.«154504_j19542101197412_2_alg».proof.Proof.Payload0
import proofs.«154504_j19542101197412_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)
open Cert.Attn

/-- The scaled queries of every head, as the array the first kernel writes them to: [batch, head, token, lane]. -/
def Qarr (x : Cert.Attn.X) (W : Cert.Attn.Wqkv) : (⟨4, ![2, 8, 4096, 64]⟩ : Shape).Idx → EReal :=
  fun i => Cert.Attn.qh x W (i 0) (i 1) (i 2) (i 3)
/-- The keys, lane before token: [batch, head, lane, token]. -/
def Karr (x : Cert.Attn.X) (W : Cert.Attn.Wqkv) : (⟨4, ![2, 8, 64, 4096]⟩ : Shape).Idx → EReal :=
  fun i => Cert.Attn.kh x W (i 0) (i 1) (i 3) (i 2)
/-- The values: [batch, head, token, lane]. -/
def Varr (x : Cert.Attn.X) (W : Cert.Attn.Wqkv) : (⟨4, ![2, 8, 4096, 64]⟩ : Shape).Idx → EReal :=
  fun i => Cert.Attn.vh x W (i 0) (i 1) (i 2) (i 3)

/-! ## Zero offsets, the index maps, and the input blocks as rows of the arrays -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the sixteen grid points: point `t` is batch `t / 8`, token tile `t % 8`. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 4) = t.val / 8 ∧ win0_2.index t (1 : Fin 4) = 0 ∧ win0_2.index t (2 : Fin 4) = t.val % 8 ∧ win0_2.index t (3 : Fin 4) = 0
    ∧ win0_3.index t (0 : Fin 4) = t.val / 8 ∧ win0_3.index t (1 : Fin 4) = 0 ∧ win0_3.index t (2 : Fin 4) = 0 ∧ win0_3.index t (3 : Fin 4) = t.val % 8
    ∧ win0_4.index t (0 : Fin 4) = t.val / 8 ∧ win0_4.index t (1 : Fin 4) = 0 ∧ win0_4.index t (2 : Fin 4) = t.val % 8 ∧ win0_4.index t (3 : Fin 4) = 0 :=
  (by decide +kernel : ∀ t : Fin grid0.N, _)

variable (V : (c : Dev nD) → (b : Ref sig .tc) → Buf (Elt Ideal) ((c : Thread nD τ).loc b))

/-- The token tile's block at point `t`: tokens `512·(t % 8) …` of batch `t / 8`. -/
theorem iblk0_0_apply (c : Dev nD) (t : Fin cfg0.N) (n k : Fin 512) (i : S2x4096x512.Idx)
    (h0 : (i 0).val = t.val / 8) (h1 : (i 1).val = 512 * (t.val % 8) + n.val) (h2 : (i 2).val = k.val) :
    (iblk0 V c 0 t : Vec Ideal S1x512x512 .f32) (ix3 (0 : Fin 1) n k) = (V c main_arg0 : S2x4096x512.Idx → EReal) i := by
  obtain ⟨e0, e1, e2, -⟩ := idx_facts0 t
  unfold iblk0
  rw [View.read_apply]
  show (V c main_arg0 : S2x4096x512.Idx → EReal) _ = _
  refine congrArg _ (funext fun a => Fin.ext ?_)
  match a with
  | ⟨0, _⟩ => show win0_0.index t (0 : Fin 3) * 1 + 1 * 0 = (i 0).val; omega
  | ⟨1, _⟩ => show win0_0.index t (1 : Fin 3) * 512 + 1 * n.val = (i 1).val; omega
  | ⟨2, _⟩ => show win0_0.index t (2 : Fin 3) * 512 + 1 * k.val = (i 2).val; omega

/-- The projection matrix's block is the whole matrix at every point. -/
theorem iblk0_1_apply (c : Dev nD) (t : Fin cfg0.N) (r : Fin 1536) (k : Fin 512) :
    (iblk0 V c 1 t : Vec Ideal S1536x512 .bf16) (ix2 r k) = (V c main_v0 : S1536x512.Idx → EReal) (ix2 r k) := by
  obtain ⟨-, -, -, e0, e1, -⟩ := idx_facts0 t
  unfold iblk0
  rw [View.read_apply]
  show (V c main_v0 : S1536x512.Idx → EReal) _ = _
  refine congrArg _ (funext fun a => Fin.ext ?_)
  match a with
  | ⟨0, _⟩ => show win0_1.index t (0 : Fin 2) * 1536 + 1 * r.val = r.val; omega
  | ⟨1, _⟩ => show win0_1.index t (1 : Fin 2) * 512 + 1 * k.val = k.val; omega

/-! ## What one point stores, over blocks that are rows of the arrays -/

/-- When the token block holds the rows `N n` of batch `b` and the matrix block the whole matrix, the stored query
    block holds the scaled queries of those tokens. -/
theorem q_block (v0 : Vec Ideal S1x512x512 .f32) (v3 : Vec Ideal S1536x512 .bf16) (x : X) (W : Wqkv) (b : Fin 2)
    (n : Fin 512) (n' : Fin 4096) (hv0 : ∀ k : Fin 512, v0 (ix3 (0 : Fin 1) n k) = x (ix3 b n' k))
    (hv3 : ∀ (r : Fin 1536) (k : Fin 512), v3 (ix2 r k) = W (ix2 r k)) (h : Fin 8) (j : Fin 64) :
    k0_pay2 (F := Ideal) v0 v3 (ix4 (0 : Fin 1) h n j) = qh x W b h n' j := by
  rw [k0_pay2_apply]
  unfold qh proj scale
  refine congrArg (· * Ideal.ofBits .f32 0x3E000000#32) (Finset.sum_congr rfl fun k _ => ?_)
  rw [hv0, hv3]

theorem k_block (v0 : Vec Ideal S1x512x512 .f32) (v3 : Vec Ideal S1536x512 .bf16) (x : X) (W : Wqkv) (b : Fin 2)
    (n : Fin 512) (n' : Fin 4096) (hv0 : ∀ k : Fin 512, v0 (ix3 (0 : Fin 1) n k) = x (ix3 b n' k))
    (hv3 : ∀ (r : Fin 1536) (k : Fin 512), v3 (ix2 r k) = W (ix2 r k)) (h : Fin 8) (j : Fin 64) :
    k0_pay3 (F := Ideal) v0 v3 (ix4 (0 : Fin 1) h j n) = kh x W b h n' j := by
  rw [k0_pay3_apply]
  unfold kh proj
  refine Finset.sum_congr rfl fun k _ => ?_
  rw [hv0, hv3]

theorem v_block (v0 : Vec Ideal S1x512x512 .f32) (v3 : Vec Ideal S1536x512 .bf16) (x : X) (W : Wqkv) (b : Fin 2)
    (n : Fin 512) (n' : Fin 4096) (hv0 : ∀ k : Fin 512, v0 (ix3 (0 : Fin 1) n k) = x (ix3 b n' k))
    (hv3 : ∀ (r : Fin 1536) (k : Fin 512), v3 (ix2 r k) = W (ix2 r k)) (h : Fin 8) (j : Fin 64) :
    k0_pay4 (F := Ideal) v0 v3 (ix4 (0 : Fin 1) h n j) = vh x W b h n' j := by
  rw [k0_pay4_apply]
  unfold vh proj
  refine Finset.sum_congr rfl fun k _ => ?_
  rw [hv0, hv3]

/-! ## The queries' array -/

/-- What point `t` writes back to the queries' array is block `t` of `Qarr`. -/
theorem flushed0_2_eq (c : Dev nD) (t : Fin cfg0.N) :
    (dat0 (F := Ideal) V c).flushed 2 t = ((cfg0.win 2).blk t).view.read (Elt Ideal) (Qarr (V c main_arg0) (V c main_v0)) := by
  show (cfg0.win 2).cut (grid0.coords t) ((dat0 V c).after 2 t) = _
  rw [after0_2]
  unfold out0_2
  rw [View.canon_unit_zero hz4]
  simp only [View.ld_unit_zero (S := S1x512x512) hz3, View.ld_unit_zero (S := S1536x512) hz2]
  funext y
  have hy0 : (y 0).val < 1 := (y 0).isLt
  have hy1 : (y 1).val < 8 := (y 1).isLt
  have hy2 : (y 2).val < 512 := (y 2).isLt
  have hy3 : (y 3).val < 64 := (y 3).isLt
  have hN : t.val < 16 := lt_of_lt_of_eq t.isLt N_0
  obtain ⟨-, -, -, -, -, e0, e1, e2, e3, -⟩ := idx_facts0 t
  have ey : (cfg0.win 2).xinj (grid0.coords t) y = ix4 (0 : Fin 1) ⟨(y 1).val, hy1⟩ ⟨(y 2).val, hy2⟩ ⟨(y 3).val, hy3⟩ :=
    funext fun a => Fin.ext (by
      match a with
      | ⟨0, _⟩ => show (y 0).val = 0; omega
      | ⟨1, _⟩ => rfl
      | ⟨2, _⟩ => rfl
      | ⟨3, _⟩ => rfl)
  show k0_pay2 (F := Ideal) (iblk0 V c 0 t) (iblk0 V c 1 t) ((cfg0.win 2).xinj (grid0.coords t) y)
    = Qarr (V c main_arg0) (V c main_v0) (((cfg0.win 2).blk t).view.emb y)
  rw [ey]
  refine (q_block _ _ (V c main_arg0) (V c main_v0) ⟨t.val / 8, by omega⟩ ⟨(y 2).val, hy2⟩ ⟨512 * (t.val % 8) + (y 2).val, by omega⟩
    (fun k => iblk0_0_apply V c t _ k _ rfl rfl rfl) (fun r k => iblk0_1_apply V c t r k) _ _).trans ?_
  unfold Qarr
  refine congr (congr (congr (congrArg (qh _ _) (Fin.ext ?_)) (Fin.ext ?_)) (Fin.ext ?_)) (Fin.ext ?_)
  · show t.val / 8 = win0_2.index t (0 : Fin 4) * 1 + 1 * (y 0).val; omega
  · show (y 1).val = win0_2.index t (1 : Fin 4) * 8 + 1 * (y 1).val; omega
  · show 512 * (t.val % 8) + (y 2).val = win0_2.index t (2 : Fin 4) * 512 + 1 * (y 2).val; omega
  · show (y 3).val = win0_2.index t (3 : Fin 4) * 64 + 1 * (y 3).val; omega

/-- An index of the queries' array is in point `t`'s block iff each coordinate is in the block's range on its axis. -/
theorem mem_blk0_2 (t : Fin cfg0.N) (i : S2x8x4096x64.Idx) :
    i ∈ ((cfg0.win 2).blk t).view.set ↔ ∀ a : Fin 4, win0_2.index t a * S1x8x512x64.size a ≤ (i a).val ∧ (i a).val < win0_2.index t a * S1x8x512x64.size a + S1x8x512x64.size a := by
  show i ∈ ((View.whole main_v4_0).slice (win0_2.rect t)).set ↔ _
  rw [View.set_slice_whole, Rect.mem_set_unit]
  exact Iff.rfl

/-- Token `n` of batch `b` lies in the block of point `8·b + n / 512`. -/
theorem cover0_2 (i : S2x8x4096x64.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 4096 := (i 2).isLt
  have h3 : (i 3).val < 64 := (i 3).isLt
  obtain ⟨t, ht⟩ : ∃ t : Fin cfg0.N, t.val = 8 * (i 0).val + (i 2).val / 512 :=
    ⟨⟨8 * (i 0).val + (i 2).val / 512, by rw [show cfg0.N = 16 from N_0]; omega⟩, rfl⟩
  refine ⟨t, flush0_2 t, ?_⟩
  rw [mem_blk0_2]
  obtain ⟨-, -, -, -, -, e0, e1, e2, e3, -⟩ := idx_facts0 t
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 512 ≤ (i 2).val ∧ (i 2).val < win0_2.index t (2 : Fin 4) * 512 + 512; omega
  | ⟨3, _⟩ => show win0_2.index t (3 : Fin 4) * 64 ≤ (i 3).val ∧ (i 3).val < win0_2.index t (3 : Fin 4) * 64 + 64; omega

/-- After the first kernel the queries' array holds the scaled queries of every head. -/
theorem final0_2 (c : Dev nD) : (dat0 (F := Ideal) V c).arrAt 2 cfg0.N = Qarr (V c main_arg0) (V c main_v0) :=
  (dat0 (F := Ideal) V c).arrAt_eq_of_cover 2 (Qarr (V c main_arg0) (V c main_v0)) (fun t _ => flushed0_2_eq V c t) cover0_2

/-! ## The values' array: the queries' layout -/

/-- What point `t` writes back to the values' array is block `t` of `Varr`. -/
theorem flushed0_4_eq (c : Dev nD) (t : Fin cfg0.N) :
    (dat0 (F := Ideal) V c).flushed 4 t = ((cfg0.win 4).blk t).view.read (Elt Ideal) (Varr (V c main_arg0) (V c main_v0)) := by
  show (cfg0.win 4).cut (grid0.coords t) ((dat0 V c).after 4 t) = _
  rw [after0_4]
  unfold out0_4
  rw [View.canon_unit_zero hz4]
  simp only [View.ld_unit_zero (S := S1x512x512) hz3, View.ld_unit_zero (S := S1536x512) hz2]
  funext y
  have hy0 : (y 0).val < 1 := (y 0).isLt
  have hy1 : (y 1).val < 8 := (y 1).isLt
  have hy2 : (y 2).val < 512 := (y 2).isLt
  have hy3 : (y 3).val < 64 := (y 3).isLt
  have hN : t.val < 16 := lt_of_lt_of_eq t.isLt N_0
  obtain ⟨-, -, -, -, -, -, -, -, -, -, -, -, -, e0, e1, e2, e3⟩ := idx_facts0 t
  have ey : (cfg0.win 4).xinj (grid0.coords t) y = ix4 (0 : Fin 1) ⟨(y 1).val, hy1⟩ ⟨(y 2).val, hy2⟩ ⟨(y 3).val, hy3⟩ :=
    funext fun a => Fin.ext (by
      match a with
      | ⟨0, _⟩ => show (y 0).val = 0; omega
      | ⟨1, _⟩ => rfl
      | ⟨2, _⟩ => rfl
      | ⟨3, _⟩ => rfl)
  show k0_pay4 (F := Ideal) (iblk0 V c 0 t) (iblk0 V c 1 t) ((cfg0.win 4).xinj (grid0.coords t) y)
    = Varr (V c main_arg0) (V c main_v0) (((cfg0.win 4).blk t).view.emb y)
  rw [ey]
  refine (v_block _ _ (V c main_arg0) (V c main_v0) ⟨t.val / 8, by omega⟩ ⟨(y 2).val, hy2⟩ ⟨512 * (t.val % 8) + (y 2).val, by omega⟩
    (fun k => iblk0_0_apply V c t _ k _ rfl rfl rfl) (fun r k => iblk0_1_apply V c t r k) _ _).trans ?_
  unfold Varr
  refine congr (congr (congr (congrArg (vh _ _) (Fin.ext ?_)) (Fin.ext ?_)) (Fin.ext ?_)) (Fin.ext ?_)
  · show t.val / 8 = win0_4.index t (0 : Fin 4) * 1 + 1 * (y 0).val; omega
  · show (y 1).val = win0_4.index t (1 : Fin 4) * 8 + 1 * (y 1).val; omega
  · show 512 * (t.val % 8) + (y 2).val = win0_4.index t (2 : Fin 4) * 512 + 1 * (y 2).val; omega
  · show (y 3).val = win0_4.index t (3 : Fin 4) * 64 + 1 * (y 3).val; omega

theorem mem_blk0_4 (t : Fin cfg0.N) (i : S2x8x4096x64.Idx) :
    i ∈ ((cfg0.win 4).blk t).view.set ↔ ∀ a : Fin 4, win0_4.index t a * S1x8x512x64.size a ≤ (i a).val ∧ (i a).val < win0_4.index t a * S1x8x512x64.size a + S1x8x512x64.size a := by
  show i ∈ ((View.whole main_v4_2).slice (win0_4.rect t)).set ↔ _
  rw [View.set_slice_whole, Rect.mem_set_unit]
  exact Iff.rfl

theorem cover0_4 (i : S2x8x4096x64.Idx) : ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 4096 := (i 2).isLt
  have h3 : (i 3).val < 64 := (i 3).isLt
  obtain ⟨t, ht⟩ : ∃ t : Fin cfg0.N, t.val = 8 * (i 0).val + (i 2).val / 512 :=
    ⟨⟨8 * (i 0).val + (i 2).val / 512, by rw [show cfg0.N = 16 from N_0]; omega⟩, rfl⟩
  refine ⟨t, flush0_4 t, ?_⟩
  rw [mem_blk0_4]
  obtain ⟨-, -, -, -, -, -, -, -, -, -, -, -, -, e0, e1, e2, e3⟩ := idx_facts0 t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- After the first kernel the values' array holds the values of every head. -/
theorem final0_4 (c : Dev nD) : (dat0 (F := Ideal) V c).arrAt 4 cfg0.N = Varr (V c main_arg0) (V c main_v0) :=
  (dat0 (F := Ideal) V c).arrAt_eq_of_cover 4 (Varr (V c main_arg0) (V c main_v0)) (fun t _ => flushed0_4_eq V c t) cover0_4

/-! ## The keys' array: lane before token, so the token tile moves along the last axis -/

/-- What point `t` writes back to the keys' array is block `t` of `Karr`. -/
theorem flushed0_3_eq (c : Dev nD) (t : Fin cfg0.N) :
    (dat0 (F := Ideal) V c).flushed 3 t = ((cfg0.win 3).blk t).view.read (Elt Ideal) (Karr (V c main_arg0) (V c main_v0)) := by
  show (cfg0.win 3).cut (grid0.coords t) ((dat0 V c).after 3 t) = _
  rw [after0_3]
  unfold out0_3
  rw [View.canon_unit_zero hz4]
  simp only [View.ld_unit_zero (S := S1x512x512) hz3, View.ld_unit_zero (S := S1536x512) hz2]
  funext y
  have hy0 : (y 0).val < 1 := (y 0).isLt
  have hy1 : (y 1).val < 8 := (y 1).isLt
  have hy2 : (y 2).val < 64 := (y 2).isLt
  have hy3 : (y 3).val < 512 := (y 3).isLt
  have hN : t.val < 16 := lt_of_lt_of_eq t.isLt N_0
  obtain ⟨-, -, -, -, -, -, -, -, -, e0, e1, e2, e3, -⟩ := idx_facts0 t
  have ey : (cfg0.win 3).xinj (grid0.coords t) y = ix4 (0 : Fin 1) ⟨(y 1).val, hy1⟩ ⟨(y 2).val, hy2⟩ ⟨(y 3).val, hy3⟩ :=
    funext fun a => Fin.ext (by
      match a with
      | ⟨0, _⟩ => show (y 0).val = 0; omega
      | ⟨1, _⟩ => rfl
      | ⟨2, _⟩ => rfl
      | ⟨3, _⟩ => rfl)
  show k0_pay3 (F := Ideal) (iblk0 V c 0 t) (iblk0 V c 1 t) ((cfg0.win 3).xinj (grid0.coords t) y)
    = Karr (V c main_arg0) (V c main_v0) (((cfg0.win 3).blk t).view.emb y)
  rw [ey]
  refine (k_block _ _ (V c main_arg0) (V c main_v0) ⟨t.val / 8, by omega⟩ ⟨(y 3).val, hy3⟩ ⟨512 * (t.val % 8) + (y 3).val, by omega⟩
    (fun k => iblk0_0_apply V c t _ k _ rfl rfl rfl) (fun r k => iblk0_1_apply V c t r k) _ _).trans ?_
  unfold Karr
  refine congr (congr (congr (congrArg (kh _ _) (Fin.ext ?_)) (Fin.ext ?_)) (Fin.ext ?_)) (Fin.ext ?_)
  · show t.val / 8 = win0_3.index t (0 : Fin 4) * 1 + 1 * (y 0).val; omega
  · show (y 1).val = win0_3.index t (1 : Fin 4) * 8 + 1 * (y 1).val; omega
  · show 512 * (t.val % 8) + (y 3).val = win0_3.index t (3 : Fin 4) * 512 + 1 * (y 3).val; omega
  · show (y 2).val = win0_3.index t (2 : Fin 4) * 64 + 1 * (y 2).val; omega

theorem mem_blk0_3 (t : Fin cfg0.N) (i : S2x8x64x4096.Idx) :
    i ∈ ((cfg0.win 3).blk t).view.set ↔ ∀ a : Fin 4, win0_3.index t a * S1x8x64x512.size a ≤ (i a).val ∧ (i a).val < win0_3.index t a * S1x8x64x512.size a + S1x8x64x512.size a := by
  show i ∈ ((View.whole main_v4_1).slice (win0_3.rect t)).set ↔ _
  rw [View.set_slice_whole, Rect.mem_set_unit]
  exact Iff.rfl

theorem cover0_3 (i : S2x8x64x4096.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 64 := (i 2).isLt
  have h3 : (i 3).val < 4096 := (i 3).isLt
  obtain ⟨t, ht⟩ : ∃ t : Fin cfg0.N, t.val = 8 * (i 0).val + (i 3).val / 512 :=
    ⟨⟨8 * (i 0).val + (i 3).val / 512, by rw [show cfg0.N = 16 from N_0]; omega⟩, rfl⟩
  refine ⟨t, flush0_3 t, ?_⟩
  rw [mem_blk0_3]
  obtain ⟨-, -, -, -, -, -, -, -, -, e0, e1, e2, e3, -⟩ := idx_facts0 t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 64 ≤ (i 2).val ∧ (i 2).val < win0_3.index t (2 : Fin 4) * 64 + 64; omega
  | ⟨3, _⟩ => show win0_3.index t (3 : Fin 4) * 512 ≤ (i 3).val ∧ (i 3).val < win0_3.index t (3 : Fin 4) * 512 + 512; omega

/-- After the first kernel the keys' array holds the keys of every head, lane before token. -/
theorem final0_3 (c : Dev nD) : (dat0 (F := Ideal) V c).arrAt 3 cfg0.N = Karr (V c main_arg0) (V c main_v0) :=
  (dat0 (F := Ideal) V c).arrAt_eq_of_cover 3 (Karr (V c main_arg0) (V c main_v0)) (fun t _ => flushed0_3_eq V c t) cover0_3

end Cert.KernelIdeal.Val

end
-- ==== Proof.KI.Region1Pieces.lean ====
import proofs.«154504_j19542101197412_2_alg».proof.Proof.KI.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Zero offsets, however the zeros are spelt -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What each case leaves, as values of the body's payloads -/

/-- Case A (the head coordinate is 0): the scratch is zeroed, read back, and left at the zero block plus this head's
    product — the second payload at the four input blocks and the first payload. -/
theorem sout1_A_0_eq (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) :
    sout1_A_0 c i arg3 harg3 arg4 harg4 arg5 harg5 arg6 harg6 arg7 harg7 arg8 harg8 arg9 harg9 hc0 hc1 x0 x1 x2 x3 x4 = k1_pay2 x0 x1 x2 x3 k1_pay1 := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S512x512) hz2, View.readCov_unit_zero (S := S512x512) _ hz2]
  simp only [View.readAt_eq_ld, harg3.read_unread, harg4.read_unread, harg5.read_unread, harg6.read_unread, harg7.read_unread, harg8.read_unread, harg9.read_unread, View.ld_unit_zero (S := S1x1x512x64) hz4, View.ld_unit_zero (S := S1x1x64x4096) hz4, View.ld_unit_zero (S := S1x1x4096x64) hz4, View.ld_unit_zero (S := S1x64x512) hz3, View.ld_unit_zero (S := S512x512) hz2, View.ld_unit_zero (S := S512) hz1, View.ld_unit_zero (S := S1x512x512) hz3]

/-- Case B (the head coordinate strictly between 0 and 7): the scratch found at `xs0` is left at `xs0` plus this
    head's product — the second payload at the four input blocks and `xs0`. -/
theorem sout1_B_0_eq (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : ¬cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) :
    sout1_B_0 c i arg3 harg3 arg4 harg4 arg5 harg5 arg6 harg6 arg7 harg7 arg8 harg8 arg9 harg9 hc0 hc1 x0 x1 x2 x3 x4 xs0 = k1_pay2 x0 x1 x2 x3 xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  rw [View.canon_unit_zero (S := S512x512) hz2]
  simp only [View.readAt_eq_ld, harg3.read_unread, harg4.read_unread, harg5.read_unread, harg6.read_unread, harg7.read_unread, harg8.read_unread, harg9.read_unread, View.ld_unit_zero (S := S1x1x512x64) hz4, View.ld_unit_zero (S := S1x1x64x4096) hz4, View.ld_unit_zero (S := S1x1x4096x64) hz4, View.ld_unit_zero (S := S1x64x512) hz3, View.ld_unit_zero (S := S512x512) hz2, View.ld_unit_zero (S := S512) hz1, View.ld_unit_zero (S := S1x512x512) hz3]

/-- Case C (the head coordinate is 7): the scratch is left as in case B. -/
theorem sout1_C_0_eq (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) :
    sout1_C_0 c i arg3 harg3 arg4 harg4 arg5 harg5 arg6 harg6 arg7 harg7 arg8 harg8 arg9 harg9 hc0 hc1 x0 x1 x2 x3 x4 xs0 = k1_pay2 x0 x1 x2 x3 xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S512x512) hz2]
  simp only [View.readAt_eq_ld, harg3.read_unread, harg4.read_unread, harg5.read_unread, harg6.read_unread, harg7.read_unread, harg8.read_unread, harg9.read_unread, View.ld_unit_zero (S := S1x1x512x64) hz4, View.ld_unit_zero (S := S1x1x64x4096) hz4, View.ld_unit_zero (S := S1x1x4096x64) hz4, View.ld_unit_zero (S := S1x64x512) hz3, View.ld_unit_zero (S := S512x512) hz2, View.ld_unit_zero (S := S512) hz1, View.ld_unit_zero (S := S1x512x512) hz3]

/-- Case C: the output's block is left at the third payload of what the scratch then holds and the bias row. -/
theorem out1_C_5_eq (c : Dev nD) (i : grid1.Coords) (arg3 : Memref sig .tc .vmem S1x1x512x64 .bf16) (harg3 : arg3.IsWhole) (arg4 : Memref sig .tc .vmem S1x1x64x4096 .bf16) (harg4 : arg4.IsWhole) (arg5 : Memref sig .tc .vmem S1x1x4096x64 .bf16) (harg5 : arg5.IsWhole) (arg6 : Memref sig .tc .vmem S1x64x512 .bf16) (harg6 : arg6.IsWhole) (arg7 : Memref sig .tc .vmem S512 .f32) (harg7 : arg7.IsWhole) (arg8 : Memref sig .tc .vmem S1x512x512 .f32) (harg8 : arg8.IsWhole) (arg9 : Memref sig .tc .vmem S512x512 .f32) (harg9 : arg9.IsWhole) (hc0 : ¬cond1_0 i) (hc1 : cond1_1 i)
    (x0 : Vec F S1x1x512x64 .bf16) (x1 : Vec F S1x1x64x4096 .bf16) (x2 : Vec F S1x1x4096x64 .bf16) (x3 : Vec F S1x64x512 .bf16) (x4 : Vec F S512 .f32) (xs0 : Vec F S512x512 .f32) :
    out1_C_5 c i arg3 harg3 arg4 harg4 arg5 harg5 arg6 harg6 arg7 harg7 arg8 harg8 arg9 harg9 hc0 hc1 x0 x1 x2 x3 x4 xs0 = k1_pay3 (k1_pay2 x0 x1 x2 x3 xs0) x4 := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S1x512x512) hz3, View.readCov_unit_zero (S := S512x512) _ hz2]
  simp only [View.readAt_eq_ld, harg3.read_unread, harg4.read_unread, harg5.read_unread, harg6.read_unread, harg7.read_unread, harg8.read_unread, harg9.read_unread, View.ld_unit_zero (S := S1x1x512x64) hz4, View.ld_unit_zero (S := S1x1x64x4096) hz4, View.ld_unit_zero (S := S1x1x4096x64) hz4, View.ld_unit_zero (S := S1x64x512) hz3, View.ld_unit_zero (S := S512x512) hz2, View.ld_unit_zero (S := S512) hz1, View.ld_unit_zero (S := S1x512x512) hz3]

end Cert.KernelIdeal.Fr

end
-- ==== Proof.Value1Blocks.lean ====
/-
  The second kernel's blocks, read at coordinates.

  The grid is 2 × 8 × 8: point t = 64·b + 8·q + h works on batch b, the q-th block of 512 query tokens and head h.
  Each window's block at point t is a box of its array whose corner is the block index times the block size, so an
  element of the block at coordinates y is the array's element at corner + y:
    queries [2, 8, 4096, 64], block [1, 1, 512, 64] at (b, h, q, 0);   keys [2, 8, 64, 4096], block [1, 1, 64, 4096] at (b, h, 0, 0);
    values  [2, 8, 4096, 64], block [1, 1, 4096, 64] at (b, h, 0, 0);  output projection [8, 64, 512], block [1, 64, 512] at (h, 0, 0);
    bias [512], whole;   result [2, 4096, 512], block [1, 512, 512] at (b, q, 0).
  The block indices are decided once over the 128 grid points.
-/
import proofs.«154504_j19542101197412_2_alg».proof.Proof.KI.Region1Base
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! The grid is 2 × 8 × 8: point t = 64·b + 8·q + h is batch b, block q of 512 query tokens, head h. -/

theorem N1_eq : cfg1.N = 128 := N_1

/-- The batch of point t. -/
def bOf (t : Fin cfg1.N) : Fin 2 := ⟨t.val / 64, by have := t.isLt; have := N1_eq; omega⟩
/-- The block of query tokens of point t. -/
def qOf (t : Fin cfg1.N) : Fin 8 := ⟨t.val / 8 % 8, by omega⟩
/-- The head of point t. -/
def hOf (t : Fin cfg1.N) : Fin 8 := ⟨t.val % 8, by omega⟩
/-- Token n of block q: 512·q + n. -/
def tok (q : Fin 8) (n : Fin 512) : Fin 4096 := ⟨512 * q.val + n.val, by omega⟩

theorem bOf_val (t : Fin cfg1.N) : (bOf t).val = t.val / 64 := rfl
theorem qOf_val (t : Fin cfg1.N) : (qOf t).val = t.val / 8 % 8 := rfl
theorem hOf_val (t : Fin cfg1.N) : (hOf t).val = t.val % 8 := rfl
theorem tok_val (q : Fin 8) (n : Fin 512) : (tok q n).val = 512 * q.val + n.val := rfl

/-- The block index of each window at each point, decided over the grid. -/
theorem idx_facts1 : ∀ t : Fin cfg1.N,
    (win1_0.index t (0 : Fin 4) = t.val / 64 ∧ win1_0.index t (1 : Fin 4) = t.val % 8 ∧ win1_0.index t (2 : Fin 4) = t.val / 8 % 8 ∧ win1_0.index t (3 : Fin 4) = 0)
    ∧ (win1_1.index t (0 : Fin 4) = t.val / 64 ∧ win1_1.index t (1 : Fin 4) = t.val % 8 ∧ win1_1.index t (2 : Fin 4) = 0 ∧ win1_1.index t (3 : Fin 4) = 0)
    ∧ (win1_2.index t (0 : Fin 4) = t.val / 64 ∧ win1_2.index t (1 : Fin 4) = t.val % 8 ∧ win1_2.index t (2 : Fin 4) = 0 ∧ win1_2.index t (3 : Fin 4) = 0)
    ∧ (win1_3.index t (0 : Fin 3) = t.val % 8 ∧ win1_3.index t (1 : Fin 3) = 0 ∧ win1_3.index t (2 : Fin 3) = 0)
    ∧ (win1_4.index t (0 : Fin 1) = 0)
    ∧ (win1_5.index t (0 : Fin 3) = t.val / 64 ∧ win1_5.index t (1 : Fin 3) = t.val / 8 % 8 ∧ win1_5.index t (2 : Fin 3) = 0) :=
  (by decide +kernel : ∀ t : Fin grid1.N, _)

/-- The query block of point t is rows 512·q .. 512·q + 511 of head h of batch b. -/
theorem blk0_apply (c : Dev nD) (t : Fin cfg1.N) (n : Fin 512) (i : Fin 64) :
    (iblk1 V c 0 t : Vec F S1x1x512x64 .bf16) (ix4 (0 : Fin 1) (0 : Fin 1) n i)
      = (V c main_v4_0 : Vec F S2x8x4096x64 .bf16) (ix4 (bOf t) (hOf t) (tok (qOf t) n) i) := by
  obtain ⟨⟨e0, e1, e2, e3⟩, -⟩ := idx_facts1 t
  show V c main_v4_0 (((cfg1.win 0).blk t).view.emb (ix4 (0 : Fin 1) (0 : Fin 1) n i)) = _
  refine congrArg _ (funext fun a => Fin.ext ?_)
  match a with
  | ⟨0, _⟩ => show win1_0.index t (0 : Fin 4) * 1 + 1 * 0 = t.val / 64; omega
  | ⟨1, _⟩ => show win1_0.index t (1 : Fin 4) * 1 + 1 * 0 = t.val % 8; omega
  | ⟨2, _⟩ => show win1_0.index t (2 : Fin 4) * 512 + 1 * n.val = 512 * (t.val / 8 % 8) + n.val; omega
  | ⟨3, _⟩ => show win1_0.index t (3 : Fin 4) * 64 + 1 * i.val = i.val; omega

/-- The key block of point t is head h of batch b, all 4096 tokens (lane before token). -/
theorem blk1_apply (c : Dev nD) (t : Fin cfg1.N) (i : Fin 64) (mm : Fin 4096) :
    (iblk1 V c 1 t : Vec F S1x1x64x4096 .bf16) (ix4 (0 : Fin 1) (0 : Fin 1) i mm)
      = (V c main_v4_1 : Vec F S2x8x64x4096 .bf16) (ix4 (bOf t) (hOf t) i mm) := by
  obtain ⟨-, ⟨e0, e1, e2, e3⟩, -⟩ := idx_facts1 t
  show V c main_v4_1 (((cfg1.win 1).blk t).view.emb (ix4 (0 : Fin 1) (0 : Fin 1) i mm)) = _
  refine congrArg _ (funext fun a => Fin.ext ?_)
  match a with
  | ⟨0, _⟩ => show win1_1.index t (0 : Fin 4) * 1 + 1 * 0 = t.val / 64; omega
  | ⟨1, _⟩ => show win1_1.index t (1 : Fin 4) * 1 + 1 * 0 = t.val % 8; omega
  | ⟨2, _⟩ => show win1_1.index t (2 : Fin 4) * 64 + 1 * i.val = i.val; omega
  | ⟨3, _⟩ => show win1_1.index t (3 : Fin 4) * 4096 + 1 * mm.val = mm.val; omega

/-- The value block of point t is head h of batch b, all 4096 tokens. -/
theorem blk2_apply (c : Dev nD) (t : Fin cfg1.N) (mm : Fin 4096) (j : Fin 64) :
    (iblk1 V c 2 t : Vec F S1x1x4096x64 .bf16) (ix4 (0 : Fin 1) (0 : Fin 1) mm j)
      = (V c main_v4_2 : Vec F S2x8x4096x64 .bf16) (ix4 (bOf t) (hOf t) mm j) := by
  obtain ⟨-, -, ⟨e0, e1, e2, e3⟩, -⟩ := idx_facts1 t
  show V c main_v4_2 (((cfg1.win 2).blk t).view.emb (ix4 (0 : Fin 1) (0 : Fin 1) mm j)) = _
  refine congrArg _ (funext fun a => Fin.ext ?_)
  match a with
  | ⟨0, _⟩ => show win1_2.index t (0 : Fin 4) * 1 + 1 * 0 = t.val / 64; omega
  | ⟨1, _⟩ => show win1_2.index t (1 : Fin 4) * 1 + 1 * 0 = t.val % 8; omega
  | ⟨2, _⟩ => show win1_2.index t (2 : Fin 4) * 4096 + 1 * mm.val = mm.val; omega
  | ⟨3, _⟩ => show win1_2.index t (3 : Fin 4) * 64 + 1 * j.val = j.val; omega

/-- The output-projection block of point t is head h's 64 rows. -/
theorem blk3_apply (c : Dev nD) (t : Fin cfg1.N) (j : Fin 64) (d : Fin 512) :
    (iblk1 V c 3 t : Vec F S1x64x512 .bf16) (ix3 (0 : Fin 1) j d)
      = (V c main_v3 : Vec F S8x64x512 .bf16) (ix3 (hOf t) j d) := by
  obtain ⟨-, -, -, ⟨e0, e1, e2⟩, -⟩ := idx_facts1 t
  show V c main_v3 (((cfg1.win 3).blk t).view.emb (ix3 (0 : Fin 1) j d)) = _
  refine congrArg _ (funext fun a => Fin.ext ?_)
  match a with
  | ⟨0, _⟩ => show win1_3.index t (0 : Fin 3) * 1 + 1 * 0 = t.val % 8; omega
  | ⟨1, _⟩ => show win1_3.index t (1 : Fin 3) * 64 + 1 * j.val = j.val; omega
  | ⟨2, _⟩ => show win1_3.index t (2 : Fin 3) * 512 + 1 * d.val = d.val; omega

/-- The bias block is the whole bias at every point. -/
theorem blk4_apply (c : Dev nD) (t : Fin cfg1.N) (d : Fin 512) :
    (iblk1 V c 4 t : Vec F S512 .f32) (ix1 d) = (V c main_arg3 : Vec F S512 .f32) (ix1 d) := by
  obtain ⟨-, -, -, -, e0, -⟩ := idx_facts1 t
  show V c main_arg3 (((cfg1.win 4).blk t).view.emb (ix1 d)) = _
  refine congrArg _ (funext fun a => Fin.ext ?_)
  match a with
  | ⟨0, _⟩ => show win1_4.index t (0 : Fin 1) * 512 + 1 * d.val = d.val; omega

/-- Entry (0, n, d) of point t's output block is entry (b, 512·q + n, d) of the result array. -/
theorem blk5_read_apply (t : Fin cfg1.N) (G : Vec F S2x4096x512 .f32) (n d : Fin 512) :
    (((cfg1.win 5).blk t).view.read (Elt F) G : Vec F S1x512x512 .f32) (ix3 (0 : Fin 1) n d)
      = G (ix3 (bOf t) (tok (qOf t) n) d) := by
  obtain ⟨-, -, -, -, -, ⟨e0, e1, e2⟩⟩ := idx_facts1 t
  show G (((cfg1.win 5).blk t).view.emb (ix3 (0 : Fin 1) n d)) = _
  refine congrArg _ (funext fun a => Fin.ext ?_)
  match a with
  | ⟨0, _⟩ => show win1_5.index t (0 : Fin 3) * 1 + 1 * 0 = t.val / 64; omega
  | ⟨1, _⟩ => show win1_5.index t (1 : Fin 3) * 512 + 1 * n.val = 512 * (t.val / 8 % 8) + n.val; omega
  | ⟨2, _⟩ => show win1_5.index t (2 : Fin 3) * 512 + 1 * d.val = d.val; omega

end Cert.KernelIdeal.Val

end
-- ==== Proof.Payload1.lean ====
/-
  The second kernel's stored values, read at coordinates.

  For one head the kernel holds a [512, 64] block q of scaled queries, the head's keys k as [64, 4096] (lane before
  token), its values v as [4096, 64] and the head's [64, 512] slice w of the output projection. It adds to a [512, 512]
  accumulator the product ((max(q · k, 0)) · v) · w, whose entry (n, d) is

    Σ_j (Σ_m max(Σ_i q[n, i] · k[i, m], 0) · v[m, j]) · w[j, d].

  Each of the three matrix products starts from a zero accumulator, so it is the plain sum over its contraction index;
  the changes of format to bf16 are the identity on the extended reals. Before the first head the accumulator is set to
  the zero word; after the last head the bias of the output feature is added to every row.
-/
import proofs.«154504_j19542101197412_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! The three matrix products of the attention kernel, each read at coordinates: the contraction index is the one
    coordinate shared by the left operand's columns and the right operand's rows. -/

abbrev D1 : DotDims S512x64 S64x4096 S512x4096 := dot_S512x64_S64x4096_S512x4096_1_0_0_1_n_n

theorem D1_lhs0 (i : S512x4096.Idx) (q : D1.contr.Idx) : (D1.lhsIdx i q 0).val = (i 0).val := by
  unfold DotDims.lhsIdx
  rw [dif_neg (show ¬(0 : Fin S512x64.rank) ∈ D1.lhsBatch by decide), dif_pos (show (0 : Fin S512x64.rank) ∈ D1.lhsNonContracting by decide)]
  rfl
theorem D1_lhs1 (i : S512x4096.Idx) (q : D1.contr.Idx) : (D1.lhsIdx i q 1).val = (q ⟨0, by decide⟩).val :=
  D1.lhsIdx_val_of_single rfl i q
theorem D1_rhs0 (i : S512x4096.Idx) (q : D1.contr.Idx) : (D1.rhsIdx i q 0).val = (q ⟨0, by decide⟩).val :=
  D1.rhsIdx_val_of_single rfl i q
theorem D1_rhs1 (i : S512x4096.Idx) (q : D1.contr.Idx) : (D1.rhsIdx i q 1).val = (i 1).val := by
  unfold DotDims.rhsIdx
  rw [dif_neg (show ¬(1 : Fin S64x4096.rank) ∈ D1.rhsBatch by decide), dif_pos (show (1 : Fin S64x4096.rank) ∈ D1.rhsNonContracting by decide)]
  rfl

theorem D1_lhsIdx (n : Fin 512) (c : Fin 4096) (k : Fin 64) :
    D1.lhsIdx (ix2 n c) ((contrEquiv1 D1 64 rfl rfl).symm k) = ix2 n k :=
  funext fun a => Fin.ext (by
    match a with
    | ⟨0, _⟩ => exact D1_lhs0 _ _
    | ⟨1, _⟩ => exact (D1_lhs1 _ _).trans (contrEquiv1_symm_val D1 64 rfl rfl k))

theorem D1_rhsIdx (n : Fin 512) (c : Fin 4096) (k : Fin 64) :
    D1.rhsIdx (ix2 n c) ((contrEquiv1 D1 64 rfl rfl).symm k) = ix2 k c :=
  funext fun a => Fin.ext (by
    match a with
    | ⟨0, _⟩ => exact (D1_rhs0 _ _).trans (contrEquiv1_symm_val D1 64 rfl rfl k)
    | ⟨1, _⟩ => exact D1_rhs1 _ _)

abbrev D2 : DotDims S512x4096 S4096x64 S512x64 := dot_S512x4096_S4096x64_S512x64_1_0_0_1_n_n

theorem D2_lhs0 (i : S512x64.Idx) (q : D2.contr.Idx) : (D2.lhsIdx i q 0).val = (i 0).val := by
  unfold DotDims.lhsIdx
  rw [dif_neg (show ¬(0 : Fin S512x4096.rank) ∈ D2.lhsBatch by decide), dif_pos (show (0 : Fin S512x4096.rank) ∈ D2.lhsNonContracting by decide)]
  rfl
theorem D2_lhs1 (i : S512x64.Idx) (q : D2.contr.Idx) : (D2.lhsIdx i q 1).val = (q ⟨0, by decide⟩).val :=
  D2.lhsIdx_val_of_single rfl i q
theorem D2_rhs0 (i : S512x64.Idx) (q : D2.contr.Idx) : (D2.rhsIdx i q 0).val = (q ⟨0, by decide⟩).val :=
  D2.rhsIdx_val_of_single rfl i q
theorem D2_rhs1 (i : S512x64.Idx) (q : D2.contr.Idx) : (D2.rhsIdx i q 1).val = (i 1).val := by
  unfold DotDims.rhsIdx
  rw [dif_neg (show ¬(1 : Fin S4096x64.rank) ∈ D2.rhsBatch by decide), dif_pos (show (1 : Fin S4096x64.rank) ∈ D2.rhsNonContracting by decide)]
  rfl

theorem D2_lhsIdx (n : Fin 512) (c : Fin 64) (k : Fin 4096) :
    D2.lhsIdx (ix2 n c) ((contrEquiv1 D2 4096 rfl rfl).symm k) = ix2 n k :=
  funext fun a => Fin.ext (by
    match a with
    | ⟨0, _⟩ => exact D2_lhs0 _ _
    | ⟨1, _⟩ => exact (D2_lhs1 _ _).trans (contrEquiv1_symm_val D2 4096 rfl rfl k))

theorem D2_rhsIdx (n : Fin 512) (c : Fin 64) (k : Fin 4096) :
    D2.rhsIdx (ix2 n c) ((contrEquiv1 D2 4096 rfl rfl).symm k) = ix2 k c :=
  funext fun a => Fin.ext (by
    match a with
    | ⟨0, _⟩ => exact (D2_rhs0 _ _).trans (contrEquiv1_symm_val D2 4096 rfl rfl k)
    | ⟨1, _⟩ => exact D2_rhs1 _ _)

abbrev D3 : DotDims S512x64 S64x512 S512x512 := dot_S512x64_S64x512_S512x512_1_0_0_1_n_n

theorem D3_lhs0 (i : S512x512.Idx) (q : D3.contr.Idx) : (D3.lhsIdx i q 0).val = (i 0).val := by
  unfold DotDims.lhsIdx
  rw [dif_neg (show ¬(0 : Fin S512x64.rank) ∈ D3.lhsBatch by decide), dif_pos (show (0 : Fin S512x64.rank) ∈ D3.lhsNonContracting by decide)]
  rfl
theorem D3_lhs1 (i : S512x512.Idx) (q : D3.contr.Idx) : (D3.lhsIdx i q 1).val = (q ⟨0, by decide⟩).val :=
  D3.lhsIdx_val_of_single rfl i q
theorem D3_rhs0 (i : S512x512.Idx) (q : D3.contr.Idx) : (D3.rhsIdx i q 0).val = (q ⟨0, by decide⟩).val :=
  D3.rhsIdx_val_of_single rfl i q
theorem D3_rhs1 (i : S512x512.Idx) (q : D3.contr.Idx) : (D3.rhsIdx i q 1).val = (i 1).val := by
  unfold DotDims.rhsIdx
  rw [dif_neg (show ¬(1 : Fin S64x512.rank) ∈ D3.rhsBatch by decide), dif_pos (show (1 : Fin S64x512.rank) ∈ D3.rhsNonContracting by decide)]
  rfl

theorem D3_lhsIdx (n : Fin 512) (c : Fin 512) (k : Fin 64) :
    D3.lhsIdx (ix2 n c) ((contrEquiv1 D3 64 rfl rfl).symm k) = ix2 n k :=
  funext fun a => Fin.ext (by
    match a with
    | ⟨0, _⟩ => exact D3_lhs0 _ _
    | ⟨1, _⟩ => exact (D3_lhs1 _ _).trans (contrEquiv1_symm_val D3 64 rfl rfl k))

theorem D3_rhsIdx (n : Fin 512) (c : Fin 512) (k : Fin 64) :
    D3.rhsIdx (ix2 n c) ((contrEquiv1 D3 64 rfl rfl).symm k) = ix2 k c :=
  funext fun a => Fin.ext (by
    match a with
    | ⟨0, _⟩ => exact (D3_rhs0 _ _).trans (contrEquiv1_symm_val D3 64 rfl rfl k)
    | ⟨1, _⟩ => exact D3_rhs1 _ _)

/-- Queries against keys: entry (n, m) is the sum over the 64 lanes. -/
theorem scores_apply (a : FVec Ideal S512x64 .bf16) (b : FVec Ideal S64x4096 .bf16) (n : Fin 512) (m : Fin 4096) :
    FloatOps.matmul D1 none a b (constant (F := Ideal) S512x4096 .f32 0x00000000#32) (ix2 n m)
      = ∑ i : Fin 64, a (ix2 n i) * b (ix2 i m) := by
  refine (Ideal.matmul_constant_zero_apply D1 none a b (ix2 n m)).trans ?_
  rw [← Equiv.sum_comp (contrEquiv1 D1 64 rfl rfl).symm]
  refine Finset.sum_congr rfl fun k _ => ?_
  rw [D1_lhsIdx, D1_rhsIdx]

/-- Clamped scores against values: entry (n, j) is the sum over the 4096 key tokens. -/
theorem weighted_apply (a : FVec Ideal S512x4096 .bf16) (b : FVec Ideal S4096x64 .bf16) (n : Fin 512) (j : Fin 64) :
    FloatOps.matmul D2 none a b (constant (F := Ideal) S512x64 .f32 0x00000000#32) (ix2 n j)
      = ∑ m : Fin 4096, a (ix2 n m) * b (ix2 m j) := by
  refine (Ideal.matmul_constant_zero_apply D2 none a b (ix2 n j)).trans ?_
  rw [← Equiv.sum_comp (contrEquiv1 D2 4096 rfl rfl).symm]
  refine Finset.sum_congr rfl fun k _ => ?_
  rw [D2_lhsIdx, D2_rhsIdx]

/-- The head's output against its slice of the output projection: entry (n, d) is the sum over the 64 lanes. -/
theorem outproj_apply (a : FVec Ideal S512x64 .bf16) (b : FVec Ideal S64x512 .bf16) (n d : Fin 512) :
    FloatOps.matmul D3 none a b (constant (F := Ideal) S512x512 .f32 0x00000000#32) (ix2 n d)
      = ∑ j : Fin 64, a (ix2 n j) * b (ix2 j d) := by
  refine (Ideal.matmul_constant_zero_apply D3 none a b (ix2 n d)).trans ?_
  rw [← Equiv.sum_comp (contrEquiv1 D3 64 rfl rfl).symm]
  refine Finset.sum_congr rfl fun k _ => ?_
  rw [D3_lhsIdx, D3_rhsIdx]

/-- A [1, 1, a, b] block viewed as [a, b] reads, at (i, j), the block at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The accumulator's first value: the zero word everywhere. -/
theorem k1_pay1_apply (n d : Fin 512) : k1_pay1 (F := Ideal) (ix2 n d) = Ideal.ofBits .f32 0x00000000#32 := by
  unfold k1_pay1
  exact congrFun (shapeCast_self _ _) (ix2 n d)

/-- One head's step: the accumulator plus, summed over the head's 64 lanes j, the clamped-score-weighted values
    Σ_m max(Σ_i q[n, i] · k[i, m], 0) · v[m, j] times the output projection's entry (j, d). -/
theorem k1_pay2_apply (v3 : Vec Ideal S1x1x512x64 .bf16) (v5 : Vec Ideal S1x1x64x4096 .bf16) (v7 : Vec Ideal S1x1x4096x64 .bf16)
    (v14 : Vec Ideal S1x64x512 .bf16) (v16 : Vec Ideal S512x512 .f32) (n d : Fin 512) :
    k1_pay2 (F := Ideal) v3 v5 v7 v14 v16 (ix2 n d)
      = v16 (ix2 n d) + ∑ j : Fin 64,
          (∑ m : Fin 4096,
              max (∑ i : Fin 64, v3 (ix4 (0 : Fin 1) (0 : Fin 1) n i) * v5 (ix4 (0 : Fin 1) (0 : Fin 1) i m))
                  (Ideal.ofBits .f32 0x00000000#32)
                * v7 (ix4 (0 : Fin 1) (0 : Fin 1) m j))
            * v14 (ix3 (0 : Fin 1) j d) := by
  unfold k1_pay2
  refine (congrFun (shapeCast_self _ _) (ix2 n d)).trans ?_
  refine (addf_apply _ _ _).trans ?_
  refine congrArg (v16 (ix2 n d) + ·) ?_
  refine (outproj_apply _ _ n d).trans ?_
  refine Finset.sum_congr rfl fun j _ => ?_
  refine congrArg₂ (· * ·) ?_ (shapeCast_1ab_ab_apply v14 _ j d)
  refine (truncf_apply (φ := .f32) (ψ := .bf16) _ bitsLt_bf16_f32 _).trans ?_
  refine (weighted_apply _ _ n j).trans ?_
  refine Finset.sum_congr rfl fun m _ => ?_
  refine congrArg₂ (· * ·) ?_ (shapeCast_11ab_ab_apply v7 _ m j)
  refine (truncf_apply (φ := .f32) (ψ := .bf16) _ bitsLt_bf16_f32 _).trans ?_
  refine (maximumf_apply _ _ _).trans ?_
  refine congrArg₂ max ?_ rfl
  refine (scores_apply _ _ n m).trans ?_
  refine Finset.sum_congr rfl fun i _ => ?_
  exact congrArg₂ (· * ·) (shapeCast_11ab_ab_apply v3 _ n i) (shapeCast_11ab_ab_apply v5 _ i m)

/-- The last head's step: the accumulator plus the bias of the output feature. -/
theorem k1_pay3_apply (v26 : Vec Ideal S512x512 .f32) (v27 : Vec Ideal S512 .f32) (n d : Fin 512) :
    k1_pay3 (F := Ideal) v26 v27 (ix3 (0 : Fin 1) n d) = v26 (ix2 n d) + v27 (ix1 d) := by
  unfold k1_pay3
  refine (shapeCast_ab_1ab_apply _ _ (0 : Fin 1) n d).trans ?_
  refine (addf_apply _ _ _).trans ?_
  refine congrArg (v26 (ix2 n d) + ·) ?_
  refine (broadcastTo_1b_ab_apply _ _ n d).trans ?_
  exact shapeCast_a_1a_apply v27 _ (0 : Fin 1) d

end Cert.KernelIdeal.Pay

end
-- ==== Proof.Value1Acc.lean ====
/-
  The second kernel's accumulator, point by point, over the extended reals.

  For a block of 512 query tokens of one batch the eight grid points h = 0 .. 7 run one after the other. The first
  stores the zero word into the accumulator and adds head 0's term; each later one adds its head's term to what the
  point before left. With

    term(b, h, n, d) = Σ_j (Σ_m max(Σ_i Q[b, h, n, i] · K[b, h, i, m], 0) · Vv[b, h, m, j]) · W3[h, j, d]

  the accumulator's entry (n, d) after point t = 64·b + 8·q + h is therefore the zero word plus the sum over the heads
  h' ≤ h of term(b, h', 512·q + n, d): by induction on the point, a point with h > 0 having the same b and q as the
  point before it. At h = 7 the output block receives that sum (the zero word is 0) plus the bias of feature d.
-/
import proofs.«154504_j19542101197412_2_alg».proof.Proof.KI.Region1
import proofs.«154504_j19542101197412_2_alg».proof.Proof.KI.Region1Pieces
import proofs.«154504_j19542101197412_2_alg».proof.Proof.Value1Blocks
import proofs.«154504_j19542101197412_2_alg».proof.Proof.Payload1
import proofs.«154504_j19542101197412_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- One head's term of one output entry, from the four arrays. -/
def headTerm (Q : (⟨4, ![2, 8, 4096, 64]⟩ : Shape).Idx → EReal) (K : (⟨4, ![2, 8, 64, 4096]⟩ : Shape).Idx → EReal)
    (Vv : (⟨4, ![2, 8, 4096, 64]⟩ : Shape).Idx → EReal) (W3 : (⟨3, ![8, 64, 512]⟩ : Shape).Idx → EReal)
    (b : Fin 2) (h : Fin 8) (n : Fin 4096) (d : Fin 512) : EReal :=
  ∑ j : Fin 64, (∑ mm : Fin 4096, max (∑ i : Fin 64, Q (ix4 b h n i) * K (ix4 b h i mm)) Cert.Attn.zero * Vv (ix4 b h mm j)) * W3 (ix3 h j d)

/-- One step of the accumulation at point t: the accumulator's entry plus the term of t's head, at t's batch and token. -/
theorem step_apply (c : Dev nD) (t : Fin cfg1.N) (xs : Vec Ideal S512x512 .f32) (n d : Fin 512) :
    k1_pay2 (F := Ideal) (iblk1 V c 0 t) (iblk1 V c 1 t) (iblk1 V c 2 t) (iblk1 V c 3 t) xs (ix2 n d)
      = xs (ix2 n d) + headTerm (V c main_v4_0) (V c main_v4_1) (V c main_v4_2) (V c main_v3) (bOf t) (hOf t) (tok (qOf t) n) d := by
  refine (Pay.k1_pay2_apply _ _ _ _ xs n d).trans ?_
  refine congrArg (xs (ix2 n d) + ·) ?_
  unfold headTerm
  refine Finset.sum_congr rfl fun j _ => ?_
  refine congrArg₂ (· * ·) ?_ (blk3_apply V c t j d)
  refine Finset.sum_congr rfl fun mm _ => ?_
  refine congrArg₂ (· * ·) ?_ (blk2_apply V c t mm j)
  refine congrArg₂ max ?_ rfl
  refine Finset.sum_congr rfl fun i _ => ?_
  exact congrArg₂ (· * ·) (blk0_apply V c t n i) (blk1_apply V c t i mm)

/-- The term of head h' at batch b, token 512·q + n, feature d; nothing for h' ≥ 8. -/
def hterm (c : Dev nD) (b : Fin 2) (q : Fin 8) (n d : Fin 512) (h' : ℕ) : EReal :=
  if hh : h' < 8 then headTerm (V c main_v4_0) (V c main_v4_1) (V c main_v4_2) (V c main_v3) b ⟨h', hh⟩ (tok q n) d else 0

/-- At the first head of a block the accumulator is zeroed and then receives the head's term. -/
theorem scratch_first (c : Dev nD) (t : Fin cfg1.N) (h0 : t.val % 8 = 0) (n d : Fin 512) :
    (outsAt1 V c t.val t.isLt).2 (ix2 n d)
      = Cert.Attn.zero + headTerm (V c main_v4_0) (V c main_v4_1) (V c main_v4_2) (V c main_v3) (bOf t) (hOf t) (tok (qOf t) n) d := by
  have h1 : ¬t.val % 8 = 7 := by omega
  rw [outsAt1_A V c t h0 h1]
  dsimp only
  rw [sout1_A_0_eq]
  refine (step_apply V c t _ n d).trans ?_
  exact congrArg (· + _) (Pay.k1_pay1_apply n d)

/-- At every later head the accumulator left by the point before receives the head's term. -/
theorem scratch_next (c : Dev nD) (t : Fin cfg1.N) (h0 : ¬t.val % 8 = 0) (n d : Fin 512) :
    (outsAt1 V c t.val t.isLt).2 (ix2 n d)
      = (outsAt1 V c (t.val - 1) (Nat.lt_of_le_of_lt (Nat.sub_le _ _) t.isLt)).2 (ix2 n d)
        + headTerm (V c main_v4_0) (V c main_v4_1) (V c main_v4_2) (V c main_v3) (bOf t) (hOf t) (tok (qOf t) n) d := by
  by_cases h1 : t.val % 8 = 7
  · rw [outsAt1_C V c t h0 h1]
    dsimp only
    rw [sout1_C_0_eq]
    exact step_apply V c t _ n d
  · rw [outsAt1_B V c t h0 h1]
    dsimp only
    rw [sout1_B_0_eq]
    exact step_apply V c t _ n d

theorem zero_eq : Cert.Attn.zero = 0 := by unfold Cert.Attn.zero; exact Ideal.ofBits_zero_f32

theorem headTerm_congr_h (Q : (⟨4, ![2, 8, 4096, 64]⟩ : Shape).Idx → EReal) (K : (⟨4, ![2, 8, 64, 4096]⟩ : Shape).Idx → EReal)
    (Vv : (⟨4, ![2, 8, 4096, 64]⟩ : Shape).Idx → EReal) (W3 : (⟨3, ![8, 64, 512]⟩ : Shape).Idx → EReal)
    (b : Fin 2) {h h' : Fin 8} (e : h = h') (n : Fin 4096) (d : Fin 512) :
    headTerm Q K Vv W3 b h n d = headTerm Q K Vv W3 b h' n d := by subst e; rfl

/-- After point k the accumulator's entry (n, d) is the zero word plus the terms of the heads 0 .. k mod 8, at the
    point's batch and at token n of the point's block. -/
theorem scratch_eq (c : Dev nD) (k : ℕ) : ∀ (hk : k < cfg1.N) (n d : Fin 512),
    (outsAt1 V c k hk).2 (ix2 n d)
      = Cert.Attn.zero + ∑ h' ∈ Finset.range (k % 8 + 1), hterm V c (bOf ⟨k, hk⟩) (qOf ⟨k, hk⟩) n d h' := by
  induction k using Nat.strong_induction_on with
  | _ k ih =>
    intro hk n d
    by_cases h0 : k % 8 = 0
    · refine (scratch_first V c ⟨k, hk⟩ h0 n d).trans ?_
      refine congrArg (Cert.Attn.zero + ·) ?_
      rw [h0, Finset.sum_range_one]
      unfold hterm
      rw [dif_pos (by omega : (0 : ℕ) < 8)]
      exact headTerm_congr_h _ _ _ _ _ (Fin.ext h0) _ _
    · have hk1 : k - 1 < cfg1.N := Nat.lt_of_le_of_lt (Nat.sub_le _ _) hk
      refine (scratch_next V c ⟨k, hk⟩ h0 n d).trans ?_
      have ihk := ih (k - 1) (by omega) hk1 n d
      have eb : bOf ⟨k - 1, hk1⟩ = bOf ⟨k, hk⟩ := Fin.ext (by show (k - 1) / 64 = k / 64; omega)
      have eq : qOf ⟨k - 1, hk1⟩ = qOf ⟨k, hk⟩ := Fin.ext (by show (k - 1) / 8 % 8 = k / 8 % 8; omega)
      have ek : (k - 1) % 8 + 1 = k % 8 := by omega
      rw [eb, eq, ek] at ihk
      refine (congrArg (· + _) ihk).trans ?_
      rw [Finset.sum_range_succ, add_assoc]
      refine congrArg (Cert.Attn.zero + ·) (congrArg (_ + ·) ?_)
      unfold hterm
      rw [dif_pos (by omega : k % 8 < 8)]
      rfl

/-- At the last head of a block the output block's entry (0, n, d) is the sum of the eight heads' terms plus the bias. -/
theorem out_flush (c : Dev nD) (t : Fin cfg1.N) (h7 : t.val % 8 = 7) (n d : Fin 512) :
    (outsAt1 V c t.val t.isLt).1 (ix3 (0 : Fin 1) n d)
      = (∑ h : Fin 8, headTerm (V c main_v4_0) (V c main_v4_1) (V c main_v4_2) (V c main_v3) (bOf t) h (tok (qOf t) n) d)
          + (V c main_arg3 : Vec Ideal S512 .f32) (ix1 d) := by
  have h0 : ¬t.val % 8 = 0 := by omega
  have e := outsAt1_C V c t h0 h7
  have e2 : (outsAt1 V c t.val t.isLt).2 = k1_pay2 (iblk1 V c 0 t) (iblk1 V c 1 t) (iblk1 V c 2 t) (iblk1 V c 3 t)
      (outsAt1 V c (t.val - 1) (Nat.lt_of_le_of_lt (Nat.sub_le _ _) t.isLt)).2 := by
    rw [e]; dsimp only; rw [sout1_C_0_eq]
  have e1 : (outsAt1 V c t.val t.isLt).1 = k1_pay3 (outsAt1 V c t.val t.isLt).2 (iblk1 V c 4 t) := by
    rw [e2]; rw [e]; dsimp only; rw [out1_C_5_eq]
  rw [e1]
  refine (Pay.k1_pay3_apply _ _ n d).trans ?_
  refine congrArg₂ (· + ·) ?_ (blk4_apply V c t d)
  refine (scratch_eq V c t.val t.isLt n d).trans ?_
  have e8 : t.val % 8 + 1 = 8 := by omega
  rw [e8, zero_eq, zero_add, Finset.sum_range]
  refine Finset.sum_congr rfl fun h _ => ?_
  unfold hterm
  rw [dif_pos h.isLt]

end Cert.KernelIdeal.Val

end
-- ==== Proof.Value1.lean ====
/-
  The second kernel's result array as one function of its five input arrays, over the extended reals.

  The result array [2, 4096, 512] is written in blocks [1, 512, 512]: the block at (b, q, 0) by the grid point
  64·b + 8·q + 7, the last head of its block of query tokens, and by no other point. What that point writes is, at
  (0, n, d), the sum over the eight heads of

    Σ_j (Σ_m max(Σ_i Q[b, h, 512·q + n, i] · K[b, h, i, m], 0) · Vv[b, h, m, j]) · W3[h, j, d]

  plus bias[d], which is the array function Out1 read through the block. Every index (b, n', d) lies in the block of the
  point 64·b + 8·(n' / 512) + 7, so the blocks cover the array and it ends holding Out1 everywhere.
-/
import proofs.«154504_j19542101197412_2_alg».proof.Proof.Value1Acc
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The result array as one function of the four arrays and the bias: entry (b, n, d) is the sum of the eight heads'
    terms plus the bias of feature d. -/
def Out1 (Q : (⟨4, ![2, 8, 4096, 64]⟩ : Shape).Idx → EReal) (K : (⟨4, ![2, 8, 64, 4096]⟩ : Shape).Idx → EReal)
    (Vv : (⟨4, ![2, 8, 4096, 64]⟩ : Shape).Idx → EReal) (W3 : (⟨3, ![8, 64, 512]⟩ : Shape).Idx → EReal)
    (bias : Cert.Attn.Bias) : Cert.Attn.X :=
  fun i => (∑ h : Fin 8, headTerm Q K Vv W3 (i 0) h (i 1) (i 2)) + bias (ix1 (i 2))

theorem Out1_ix3 (Q : (⟨4, ![2, 8, 4096, 64]⟩ : Shape).Idx → EReal) (K : (⟨4, ![2, 8, 64, 4096]⟩ : Shape).Idx → EReal)
    (Vv : (⟨4, ![2, 8, 4096, 64]⟩ : Shape).Idx → EReal) (W3 : (⟨3, ![8, 64, 512]⟩ : Shape).Idx → EReal)
    (bias : Cert.Attn.Bias) (b : Fin 2) (n : Fin 4096) (d : Fin 512) :
    Out1 Q K Vv W3 bias (ix3 b n d) = (∑ h : Fin 8, headTerm Q K Vv W3 b h n d) + bias (ix1 d) := rfl

/-- What a point at the last head writes back is its block of the result array. -/
theorem flushed1_5_eq (c : Dev nD) (t : Fin cfg1.N) (hf : (cfg1.win 5).flush t = true) :
    (dat1 (F := Ideal) V c).flushed 5 t
      = ((cfg1.win 5).blk t).view.read (Elt Ideal) (Out1 (V c main_v4_0) (V c main_v4_1) (V c main_v4_2) (V c main_v3) (V c main_arg3)) := by
  have h7 : t.val % 8 = 7 := (flush1_5 t).mp hf
  show (cfg1.win 5).cut (grid1.coords t) ((dat1 V c).after 5 t) = _
  rw [after1_5]
  funext y
  have hy0 : (y 0).val < 1 := (y 0).isLt
  have hy1 : (y 1).val < 512 := (y 1).isLt
  have hy2 : (y 2).val < 512 := (y 2).isLt
  obtain ⟨n, d, rfl⟩ : ∃ (n d : Fin 512), y = ix3 (0 : Fin 1) n d :=
    ⟨⟨(y 1).val, hy1⟩, ⟨(y 2).val, hy2⟩, funext fun a => Fin.ext (by
      match a with
      | ⟨0, _⟩ => show (y 0).val = 0; omega
      | ⟨1, _⟩ => rfl
      | ⟨2, _⟩ => rfl)⟩
  have ex : (cfg1.win 5).xinj (grid1.coords t) (ix3 (0 : Fin 1) n d) = ix3 (0 : Fin 1) n d :=
    funext fun a => Fin.ext (by
      match a with
      | ⟨0, _⟩ => rfl
      | ⟨1, _⟩ => rfl
      | ⟨2, _⟩ => rfl)
  show (outsAt1 V c t.val t.isLt).1 ((cfg1.win 5).xinj (grid1.coords t) (ix3 (0 : Fin 1) n d)) = _
  rw [ex]
  refine (out_flush V c t h7 n d).trans ?_
  refine Eq.trans ?_ (blk5_read_apply (F := Ideal) t (Out1 (V c main_v4_0) (V c main_v4_1) (V c main_v4_2) (V c main_v3) (V c main_arg3)) n d).symm
  exact (Out1_ix3 _ _ _ _ _ _ _ _).symm

/-- An index of the result array is in point t's block iff each coordinate is in the block's range on its axis. -/
theorem mem_blk1_5 (t : Fin cfg1.N) (i : S2x4096x512.Idx) :
    i ∈ ((cfg1.win 5).blk t).view.set ↔ ∀ a : Fin 3, win1_5.index t a * S1x512x512.size a ≤ (i a).val ∧ (i a).val < win1_5.index t a * S1x512x512.size a + S1x512x512.size a := by
  show i ∈ ((View.whole main_v5).slice (win1_5.rect t)).set ↔ _
  rw [View.set_slice_whole, Rect.mem_set_unit]
  exact Iff.rfl

/-- Token n of batch b lies in the block written back at point 64·b + 8·(n / 512) + 7. -/
theorem cover1_5 (i : S2x4096x512.Idx) : ∃ t : Fin cfg1.N, (cfg1.win 5).flush t = true ∧ i ∈ ((cfg1.win 5).blk t).view.set := by
  have h0 : (i 0).val < 2 := (i 0).isLt
  have h1 : (i 1).val < 4096 := (i 1).isLt
  have h2 : (i 2).val < 512 := (i 2).isLt
  obtain ⟨t, ht⟩ : ∃ t : Fin cfg1.N, t.val = 64 * (i 0).val + 8 * ((i 1).val / 512) + 7 :=
    ⟨⟨64 * (i 0).val + 8 * ((i 1).val / 512) + 7, by rw [N1_eq]; omega⟩, rfl⟩
  refine ⟨t, (flush1_5 t).mpr (by omega), ?_⟩
  rw [mem_blk1_5]
  obtain ⟨-, -, -, -, -, ⟨e0, e1, e2⟩⟩ := idx_facts1 t
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 512 ≤ (i 2).val ∧ (i 2).val < win1_5.index t (2 : Fin 3) * 512 + 512; omega

/-- After the second kernel the result array holds, at every index, the sum of the eight heads' terms plus the bias. -/
theorem final1_5 (c : Dev nD) :
    (dat1 (F := Ideal) V c).arrAt 5 cfg1.N
      = Out1 (V c main_v4_0) (V c main_v4_1) (V c main_v4_2) (V c main_v3) (V c main_arg3) :=
  (dat1 (F := Ideal) V c).arrAt_eq_of_cover 5 (Out1 (V c main_v4_0) (V c main_v4_1) (V c main_v4_2) (V c main_v3) (V c main_arg3))
    (fun t hf => flushed1_5_eq V c t hf) cover1_5

end Cert.KernelIdeal.Val

end
-- ==== Proof.Host.lean ====
/-
  What the four host operations before the kernels leave, on the extended reals.

  The projection matrix is converted to bf16, which changes nothing here: the converted array is the matrix. The output
  matrix Wo : [512, 512] is reshaped to [512, 8, 64] (feature e = 64·h + j split into head h and lane j), transposed to
  [8, 64, 512] and converted: entry (h, j, d) of the result is Wo[d, 64·h + j].
-/
import proofs.«154504_j19542101197412_2_alg».proof.Proof.Gen.KernelIdeal.Launch
import proofs.«154504_j19542101197412_2_alg».proof.Proof.Spec
import Idealize.ShloMosaic.Lib.Pipeline.Value
import Idealize.ShloMosaic.Lib.ValueIdx
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The converted projection matrix is the projection matrix. -/
theorem host_v0 :
    (StableHlo.after (hostOps0 (F := Ideal)) (fun b => m (c, b)) (Proc.devRef .tc main_v0) : S1536x512.Idx → EReal)
      = (m ((c : Thread nD τ).loc main_arg1) : S1536x512.Idx → EReal) := by
  after_results; rfl

/-- The reshaped, transposed, converted output matrix as a term of the output matrix. -/
theorem host_v3 :
    (StableHlo.after (hostOps0 (F := Ideal)) (fun b => m (c, b)) (Proc.devRef .tc main_v3) : S8x64x512.Idx → EReal)
      = (truncf (F := Ideal) .bf16 (transpose S8x64x512 [1, 2, 0] (shapeCast S512x8x64 (m ((c : Thread nD τ).loc main_arg2) : FVec Ideal S512x512 .f32) shapeCasts_S512x512_S512x8x64) transposes_S512x8x64_S8x64x512_1_2_0) bitsLt_bf16_f32 : S8x64x512.Idx → EReal) := by
  after_results; rfl

/-- Entry (h, j, d) of it is the output matrix at row d, feature 64·h + j. -/
theorem host_v3_apply (h : Fin 8) (j : Fin 64) (d : Fin 512) :
    (StableHlo.after (hostOps0 (F := Ideal)) (fun b => m (c, b)) (Proc.devRef .tc main_v3) : S8x64x512.Idx → EReal) (ix3 h j d)
      = (m ((c : Thread nD τ).loc main_arg2) : S512x512.Idx → EReal) (ix2 d (Cert.Attn.hd h j)) := by
  rw [host_v3]
  refine (truncf_apply (φ := .f32) (ψ := .bf16) _ bitsLt_bf16_f32 (ix3 h j d)).trans ?_
  refine (transpose_apply [1, 2, 0] _ transposes_S512x8x64_S8x64x512_1_2_0 (ix3 h j d) (ix3 d h j) ?_).trans ?_
  · intro b; match b with
    | ⟨0, _⟩ => rfl
    | ⟨1, _⟩ => rfl
    | ⟨2, _⟩ => rfl
  · refine shapeCast_apply _ shapeCasts_S512x512_S512x8x64 (ix3 d h j) (ix2 d (Cert.Attn.hd h j)) ?_
    rw [Shape.rowMajor_val_two, Shape.rowMajor_val_three]
    show d.val * 512 + (64 * h.val + j.val) = (d.val * 8 + h.val) * 64 + j.val
    omega

end Cert.KernelIdeal.Val

end
-- ==== Proof.Bridge.lean ====
/-
  The kernel program's result array is the specification of the launch arguments.

  The attention kernel's output array is its whole-array function of the five arrays it reads. Three of them are the
  projection kernel's output arrays, which are the scaled queries, the keys (lane before token) and the values of the
  launch arguments x and W per head; the fourth is what the host operations made of the output matrix, whose entry
  (h, j, d) is Wo[d, 64·h + j]; the fifth is the bias, untouched. Substituting, the eight heads' terms are the
  specification's, and the sum over heads plus the bias is the specification's entry.
-/
import proofs.«154504_j19542101197412_2_alg».proof.Proof.KI.Run
import proofs.«154504_j19542101197412_2_alg».proof.Proof.Value0
import proofs.«154504_j19542101197412_2_alg».proof.Proof.Value1
import proofs.«154504_j19542101197412_2_alg».proof.Proof.Host

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-- The attention kernel's function of the projection kernel's three arrays is the specification, when the slab array's
    entry (h, j, d) is the output matrix at row d, feature 64·h + j. -/
theorem out1_of_heads (x : Cert.Attn.X) (W : Cert.Attn.Wqkv) (Wo : Cert.Attn.Wout) (bias : Cert.Attn.Bias)
    (W3 : (⟨3, ![8, 64, 512]⟩ : Shape).Idx → EReal) (hW3 : ∀ (h : Fin 8) (j : Fin 64) (d : Fin 512), W3 (ix3 h j d) = Wo (ix2 d (Cert.Attn.hd h j))) :
    Out1 (Qarr x W) (Karr x W) (Varr x W) W3 bias = Cert.Attn.G x W Wo bias := by
  funext i
  obtain ⟨b, n, d, rfl⟩ : ∃ (b : Fin 2) (n : Fin 4096) (d : Fin 512), i = ix3 b n d := ⟨i 0, i 1, i 2, eq_ix3 i⟩
  show (∑ h : Fin 8, headTerm (Qarr x W) (Karr x W) (Varr x W) W3 b h n d) + bias (ix1 d) = Cert.Attn.outAt x W Wo bias b n d
  unfold Cert.Attn.outAt
  refine congrArg (· + bias (ix1 d)) (Finset.sum_congr rfl fun h _ => ?_)
  unfold headTerm Cert.Attn.headOut
  refine Finset.sum_congr rfl fun j _ => ?_
  rw [hW3 h j d]
  rfl

variable (m : (ℓ : Loc nD τ sig) → Buf (Elt Ideal) ℓ) (c : Dev nD)

/-- The projection kernel is entered with the tokens as launched -/
theorem E1_arg0 : (E1 m c main_arg0 : S2x4096x512.Idx → EReal) = (m ((c : Thread nD τ).loc main_arg0) : S2x4096x512.Idx → EReal) :=
  W1_arg m c main_arg0 (by decide)
/-- and the converted projection matrix, which is the projection matrix. -/
theorem E1_v0 : (E1 m c main_v0 : S1536x512.Idx → EReal) = (m ((c : Thread nD τ).loc main_arg1) : S1536x512.Idx → EReal) :=
  host_v0 m c

/-- The attention kernel is entered with the projection kernel's three output arrays, -/
theorem E2_q : (E2 m c main_v4_0 : S2x8x4096x64.Idx → EReal) = Qarr (m ((c : Thread nD τ).loc main_arg0)) (m ((c : Thread nD τ).loc main_arg1)) :=
  (W2_arr m c 2).trans ((final0_2 (E1 m) c).trans (by rw [E1_arg0, E1_v0]))
theorem E2_k : (E2 m c main_v4_1 : S2x8x64x4096.Idx → EReal) = Karr (m ((c : Thread nD τ).loc main_arg0)) (m ((c : Thread nD τ).loc main_arg1)) :=
  (W2_arr m c 3).trans ((final0_3 (E1 m) c).trans (by rw [E1_arg0, E1_v0]))
theorem E2_v : (E2 m c main_v4_2 : S2x8x4096x64.Idx → EReal) = Varr (m ((c : Thread nD τ).loc main_arg0)) (m ((c : Thread nD τ).loc main_arg1)) :=
  (W2_arr m c 4).trans ((final0_4 (E1 m) c).trans (by rw [E1_arg0, E1_v0]))
/-- the rearranged output matrix, -/
theorem E2_w (h : Fin 8) (j : Fin 64) (d : Fin 512) :
    (E2 m c main_v3 : S8x64x512.Idx → EReal) (ix3 h j d) = (m ((c : Thread nD τ).loc main_arg2) : S512x512.Idx → EReal) (ix2 d (Cert.Attn.hd h j)) :=
  (congrFun (W2_of_ne m c main_v3 (by decide)) (ix3 h j d)).trans (host_v3_apply m c h j d)
/-- and the bias as launched. -/
theorem E2_bias : (E2 m c main_arg3 : S512.Idx → EReal) = (m ((c : Thread nD τ).loc main_arg3) : S512.Idx → EReal) :=
  (W2_of_ne m c main_arg3 (by decide)).trans (W1_arg m c main_arg3 (by decide))

/-- The output array the attention kernel's write-backs leave is the specification of the launch arguments. -/
theorem result_eq :
    ((dat1 (F := Ideal) (E2 m) c).arrAt 5 cfg1.N : S2x4096x512.Idx → EReal)
      = Cert.Attn.G (m ((c : Thread nD τ).loc main_arg0)) (m ((c : Thread nD τ).loc main_arg1)) (m ((c : Thread nD τ).loc main_arg2)) (m ((c : Thread nD τ).loc main_arg3)) := by
  rw [final1_5 (E2 m) c, E2_q, E2_k, E2_v, E2_bias]
  exact out1_of_heads _ _ _ _ _ (E2_w m c)

end Cert.KernelIdeal.Val

end
-- ==== Proof.RefIsSpec.lean ====
/-
  The reference's result array, read index by index, is the specification `Cert.Attn.G` of the argument arrays.

  The reference computes the stacked projection `x · Wᵀ` once, slices it into queries, keys and values, reshapes each
  feature axis of 512 into eight heads of sixty-four lanes (feature `64·h + j` is lane `j` of head `h`) and moves the
  head axis in front of the token axis. Every one of these layout operations reads its operand at a computed index, and
  the only arithmetic in them is that of the row-major position: `((b·4096 + n)·8 + h)·64 + j = (b·4096 + n)·512 + (64·h + j)`.
  So the queries, keys and values at head coordinates are entries of the projection at row `512·s + (64·h + j)`; the scores,
  their clamp at zero and the product with the values are then the specification's sums term by term. The output
  projection contracts all 512 features at once where the specification sums head by head: `Cert.Attn.sum_heads`.
-/
import proofs.«154504_j19542101197412_2_alg».proof.Proof.Gen.ReferenceIdeal.Read
import proofs.«154504_j19542101197412_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The argument arrays, as the reference's stages take them. -/
abbrev A0 : Type := (⟨S2x4096x512, .f32⟩ : BufTy).Contents (Elt Ideal)
abbrev A1 : Type := (⟨S1536x512, .f32⟩ : BufTy).Contents (Elt Ideal)
abbrev A2 : Type := (⟨S512x512, .f32⟩ : BufTy).Contents (Elt Ideal)
abbrev A3 : Type := (⟨S512, .f32⟩ : BufTy).Contents (Elt Ideal)

/-! ## The stacked projection -/

/-- Entry `(b, n, r)` of the stacked projection is row `b, n` of `x` against row `r` of `W`. -/
theorem proj_at (x0 : A0) (x1 : A1) (b : Fin 2) (n : Fin 4096) (r : Fin 1536) :
    val_main_v0 (F := Ideal) x0 x1 (ix3 b n r) = ∑ k : Fin 512, x0 (ix3 b n k) * x1 (ix2 r k) := by
  rw [val_main_v0_apply]
  refine Finset.sum_congr rfl fun k _ => ?_
  have el : lidx_main_v0 (ix3 b n r) k = ix3 b n k :=
    funext fun a => Fin.ext (by match a with | ⟨0, _⟩ => rfl | ⟨1, _⟩ => rfl | ⟨2, _⟩ => rfl)
  have er : ridx_main_v0 (ix3 b n r) k = ix2 r k :=
    funext fun a => Fin.ext (by match a with | ⟨0, _⟩ => rfl | ⟨1, _⟩ => rfl)
  rw [el, er]

/-- In particular at row `512·s + e` it is the specification's `proj`. -/
theorem proj_sec (x0 : A0) (x1 : A1) (s : Fin 3) (b : Fin 2) (n : Fin 4096) (e : Fin 512) :
    val_main_v0 (F := Ideal) x0 x1 (ix3 b n (sec s e)) = proj x0 x1 s b n e := proj_at x0 x1 b n (sec s e)

/-! ## Queries, keys and values at head coordinates

The three chains slice → reshape → transpose differ only in the slice's offset. Position `(b, h, n, j)` of the transposed
array is position `(b, n, h, j)` of the reshaped one, whose row-major position `((b·4096 + n)·8 + h)·64 + j` is that of
`(b, n, 64·h + j)` in the slice, which is `(b, n, 512·s + 64·h + j)` of the stacked projection. -/

theorem q_at (x0 : A0) (x1 : A1) (b : Fin 2) (h : Fin 8) (n : Fin 4096) (j : Fin 64) :
    val_main_v5 (F := Ideal) x0 x1 (ix4 b h n j) = proj x0 x1 0 b n (hd h j) := by
  rw [val_main_v5_apply, val_main_v4_apply, val_main_v1_apply, ← proj_sec]
  refine congrArg (val_main_v0 (F := Ideal) x0 x1) (funext fun a => Fin.ext ?_)
  have hb := b.isLt; have hh := h.isLt; have hn := n.isLt; have hj := j.isLt
  match a with
  | ⟨0, _⟩ => show (((b.val * 4096 + n.val) * 8 + h.val) * 64 + j.val) / 2097152 = b.val; omega
  | ⟨1, _⟩ => show (((b.val * 4096 + n.val) * 8 + h.val) * 64 + j.val) / 512 % 4096 = n.val; omega
  | ⟨2, _⟩ => show (((b.val * 4096 + n.val) * 8 + h.val) * 64 + j.val) % 512 = 512 * 0 + (64 * h.val + j.val); omega

theorem k_at (x0 : A0) (x1 : A1) (b : Fin 2) (h : Fin 8) (n : Fin 4096) (j : Fin 64) :
    val_main_v7 (F := Ideal) x0 x1 (ix4 b h n j) = proj x0 x1 1 b n (hd h j) := by
  rw [val_main_v7_apply, val_main_v6_apply, val_main_v2_apply, ← proj_sec]
  refine congrArg (val_main_v0 (F := Ideal) x0 x1) (funext fun a => Fin.ext ?_)
  have hb := b.isLt; have hh := h.isLt; have hn := n.isLt; have hj := j.isLt
  match a with
  | ⟨0, _⟩ => show (((b.val * 4096 + n.val) * 8 + h.val) * 64 + j.val) / 2097152 = b.val; omega
  | ⟨1, _⟩ => show (((b.val * 4096 + n.val) * 8 + h.val) * 64 + j.val) / 512 % 4096 = n.val; omega
  | ⟨2, _⟩ => show 512 + (((b.val * 4096 + n.val) * 8 + h.val) * 64 + j.val) % 512 = 512 * 1 + (64 * h.val + j.val); omega

theorem v_at (x0 : A0) (x1 : A1) (b : Fin 2) (h : Fin 8) (n : Fin 4096) (j : Fin 64) :
    val_main_v9 (F := Ideal) x0 x1 (ix4 b h n j) = proj x0 x1 2 b n (hd h j) := by
  rw [val_main_v9_apply, val_main_v8_apply, val_main_v3_apply, ← proj_sec]
  refine congrArg (val_main_v0 (F := Ideal) x0 x1) (funext fun a => Fin.ext ?_)
  have hb := b.isLt; have hh := h.isLt; have hn := n.isLt; have hj := j.isLt
  match a with
  | ⟨0, _⟩ => show (((b.val * 4096 + n.val) * 8 + h.val) * 64 + j.val) / 2097152 = b.val; omega
  | ⟨1, _⟩ => show (((b.val * 4096 + n.val) * 8 + h.val) * 64 + j.val) / 512 % 4096 = n.val; omega
  | ⟨2, _⟩ => show 1024 + (((b.val * 4096 + n.val) * 8 + h.val) * 64 + j.val) % 512 = 512 * 2 + (64 * h.val + j.val); omega

/-! ## The scaled queries and the scores -/

/-- The broadcast scale reads the word `1/8` everywhere. -/
theorem scale_at (i : S2x8x4096x64.Idx) : val_main_v10 (F := Ideal) i = scale := by
  rw [val_main_v10_apply, val_main_cst_apply]
  rfl

theorem qs_at (x0 : A0) (x1 : A1) (b : Fin 2) (h : Fin 8) (n : Fin 4096) (j : Fin 64) :
    val_main_v11 (F := Ideal) x0 x1 (ix4 b h n j) = qh x0 x1 b h n j := by
  rw [val_main_v11_apply, q_at, scale_at]
  rfl

/-- The first batched contraction sums a head's sixty-four lanes: the score. -/
theorem score_at (x0 : A0) (x1 : A1) (b : Fin 2) (h : Fin 8) (n m : Fin 4096) :
    val_main_v12 (F := Ideal) x0 x1 (ix4 b h n m) = score x0 x1 b h n m := by
  rw [val_main_v12_apply]
  refine Finset.sum_congr rfl fun k _ => ?_
  have el : lidx_main_v12 (ix4 b h n m) k = ix4 b h n k :=
    funext fun a => Fin.ext (by match a with | ⟨0, _⟩ => rfl | ⟨1, _⟩ => rfl | ⟨2, _⟩ => rfl | ⟨3, _⟩ => rfl)
  have er : ridx_main_v12 (ix4 b h n m) k = ix4 b h m k :=
    funext fun a => Fin.ext (by match a with | ⟨0, _⟩ => rfl | ⟨1, _⟩ => rfl | ⟨2, _⟩ => rfl | ⟨3, _⟩ => rfl)
  rw [el, er, qs_at, k_at]
  rfl

/-- The broadcast zero reads the zero word everywhere. -/
theorem zero_at (i : S2x8x4096x4096.Idx) : val_main_call0_v0 (F := Ideal) i = zero := by
  rw [val_main_call0_v0_apply, val_main_call0_cst_apply]
  rfl

/-- The clamped score. -/
theorem relu_at (x0 : A0) (x1 : A1) (b : Fin 2) (h : Fin 8) (n m : Fin 4096) :
    val_main_v13 (F := Ideal) x0 x1 (ix4 b h n m) = max (score x0 x1 b h n m) zero := by
  rw [val_main_v13_apply, score_at, zero_at]
  rfl

/-! ## The clamped scores applied to the values -/

/-- The second batched contraction sums over the key tokens. -/
theorem attn_at (x0 : A0) (x1 : A1) (b : Fin 2) (h : Fin 8) (n : Fin 4096) (d : Fin 64) :
    val_main_v14 (F := Ideal) x0 x1 (ix4 b h n d) = attn x0 x1 b h n d := by
  rw [val_main_v14_apply]
  refine Finset.sum_congr rfl fun m _ => ?_
  have el : lidx_main_v14 (ix4 b h n d) m = ix4 b h n m :=
    funext fun a => Fin.ext (by match a with | ⟨0, _⟩ => rfl | ⟨1, _⟩ => rfl | ⟨2, _⟩ => rfl | ⟨3, _⟩ => rfl)
  have er : ridx_main_v14 (ix4 b h n d) m = ix4 b h m d :=
    funext fun a => Fin.ext (by match a with | ⟨0, _⟩ => rfl | ⟨1, _⟩ => rfl | ⟨2, _⟩ => rfl | ⟨3, _⟩ => rfl)
  rw [el, er, relu_at, v_at]
  rfl

/-- Back to the token-major layout with the heads' lanes side by side: feature `64·h + j` of token `n` is lane `j` of
    head `h`, since `(b·4096 + n)·512 + (64·h + j)` is the row-major position of `(b, n, h, j)`. -/
theorem flat_at (x0 : A0) (x1 : A1) (b : Fin 2) (h : Fin 8) (n : Fin 4096) (j : Fin 64) :
    val_main_v16 (F := Ideal) x0 x1 (ix3 b n (hd h j)) = attn x0 x1 b h n j := by
  rw [val_main_v16_apply, val_main_v15_apply, ← attn_at]
  refine congrArg (val_main_v14 (F := Ideal) x0 x1) (funext fun a => Fin.ext ?_)
  have hb := b.isLt; have hh := h.isLt; have hn := n.isLt; have hj := j.isLt
  match a with
  | ⟨0, _⟩ => show ((b.val * 4096 + n.val) * 512 + (64 * h.val + j.val)) / 2097152 = b.val; omega
  | ⟨1, _⟩ => show ((b.val * 4096 + n.val) * 512 + (64 * h.val + j.val)) / 64 % 8 = h.val; omega
  | ⟨2, _⟩ => show ((b.val * 4096 + n.val) * 512 + (64 * h.val + j.val)) / 512 % 4096 = n.val; omega
  | ⟨3, _⟩ => show ((b.val * 4096 + n.val) * 512 + (64 * h.val + j.val)) % 64 = j.val; omega

/-! ## The output projection and the bias -/

/-- The last contraction runs over all 512 features; grouped by head it is the sum of the heads' shares. -/
theorem out_at (x0 : A0) (x1 : A1) (x2 : A2) (b : Fin 2) (n : Fin 4096) (d : Fin 512) :
    val_main_v17 (F := Ideal) x0 x1 x2 (ix3 b n d) = ∑ h : Fin 8, headOut x0 x1 x2 b h n d := by
  rw [val_main_v17_apply, sum_heads]
  refine Finset.sum_congr rfl fun h _ => Finset.sum_congr rfl fun j _ => ?_
  have el : lidx_main_v17 (ix3 b n d) (hd h j) = ix3 b n (hd h j) :=
    funext fun a => Fin.ext (by match a with | ⟨0, _⟩ => rfl | ⟨1, _⟩ => rfl | ⟨2, _⟩ => rfl)
  have er : ridx_main_v17 (ix3 b n d) (hd h j) = ix2 d (hd h j) :=
    funext fun a => Fin.ext (by match a with | ⟨0, _⟩ => rfl | ⟨1, _⟩ => rfl)
  rw [el, er, flat_at]

/-- The bias, broadcast along batch and token, reads its entry `d`. -/
theorem bias_at (x3 : A3) (b : Fin 2) (n : Fin 4096) (d : Fin 512) :
    val_main_v19 (F := Ideal) x3 (ix3 b n d) = x3 (ix1 d) := by
  rw [val_main_v19_apply, val_main_v18_apply]
  refine congrArg x3 (funext fun a => Fin.ext ?_)
  match a with
  | ⟨0, _⟩ => rfl

/-- The result at coordinates. -/
theorem result_at (x0 : A0) (x1 : A1) (x2 : A2) (x3 : A3) (b : Fin 2) (n : Fin 4096) (d : Fin 512) :
    val_main_v20 (F := Ideal) x0 x1 x2 x3 (ix3 b n d) = outAt x0 x1 x2 x3 b n d := by
  rw [val_main_v20_apply, out_at, bias_at]
  rfl

/-- The reference's result array is the specification of its argument arrays. -/
theorem ref_is_spec
    (x0 : (⟨Cert.ReferenceIdeal.S2x4096x512, .f32⟩ : BufTy).Contents (Elt Ideal)) (x1 : (⟨Cert.ReferenceIdeal.S1536x512, .f32⟩ : BufTy).Contents (Elt Ideal))
    (x2 : (⟨Cert.ReferenceIdeal.S512x512, .f32⟩ : BufTy).Contents (Elt Ideal)) (x3 : (⟨Cert.ReferenceIdeal.S512, .f32⟩ : BufTy).Contents (Elt Ideal)) :
    Cert.ReferenceIdeal.Read.val_main_v20 (F := Ideal) x0 x1 x2 x3 = Cert.Attn.G x0 x1 x2 x3 := by
  funext i
  obtain ⟨b, n, d, rfl⟩ : ∃ (b : Fin 2) (n : Fin 4096) (d : Fin 512), i = ix3 b n d := ⟨i 0, i 1, i 2, eq_ix3 i⟩
  rw [result_at, G_ix3]

end Cert.ReferenceIdeal.RefValue

end
-- ==== Proof.lean ====
/-
  The certificate: a two-kernel attention layer against its plain reference, on the extended reals.

  The kernel program converts the projection matrix and rearranges the output matrix on the host, then runs a projection
  kernel (x · Wᵀ, split into scaled queries, keys and values per head) and an attention kernel that, for each tile of 512
  query tokens, walks the eight heads, adding each head's clamped-score attention applied to its slab of the output matrix
  into an accumulator, and writes the accumulator plus the bias at the last head. The reference computes the same
  quantities with whole-array operations and one contraction over all 512 features.

  Frames. Each kernel is run point by point by the pipeline; the body's effect on its buffers at each point is the proof
  data (for the attention kernel, by cases on the head: the first resets the accumulator, the last stores the tile), and
  the program is the chain host operations, first kernel, second kernel over the buffers' contents at each boundary.
  The same argument, read at either float instance, gives the word-level program's frame and the idealized one's. The
  reference is host operations only.

  Values. On the extended reals a change of float format is the identity and sums may be regrouped freely, so the
  accumulator after the last head is the sum over the eight heads of sixty-four lane terms each, which is the reference's
  single sum over 512 features. No finiteness is used: only commutativity and associativity of + and ·.
-/
import proofs.«154504_j19542101197412_2_alg».proof.Defs
import proofs.«154504_j19542101197412_2_alg».proof.Proof.Gen.Kernel
import proofs.«154504_j19542101197412_2_alg».proof.Proof.Gen.KernelIdeal
import proofs.«154504_j19542101197412_2_alg».proof.Proof.Gen.ReferenceIdeal
import proofs.«154504_j19542101197412_2_alg».proof.Proof.Gen.Pre_finite_inputs
import proofs.«154504_j19542101197412_2_alg».proof.Proof.Gen.ReferenceIdeal.Run
import proofs.«154504_j19542101197412_2_alg».proof.Proof.Gen.ReferenceIdeal.Read
import proofs.«154504_j19542101197412_2_alg».proof.Proof.K.Run
import proofs.«154504_j19542101197412_2_alg».proof.Proof.KI.Run
import proofs.«154504_j19542101197412_2_alg».proof.Proof.Bridge
import proofs.«154504_j19542101197412_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments unchanged. -/
theorem frame_kernel : Cert.frame_Kernel := fun m ρ _ => Cert.Kernel.Fr.frame m ρ

/-- So does the idealized program. -/
theorem frame_kernelIdeal : Cert.frame_KernelIdeal := fun m ρ _ => Cert.KernelIdeal.Fr.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification of the arguments in their result. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Val.result_eq m c), (h c).2⟩)
      (Cert.KernelIdeal.Fr.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, Cert.ReferenceIdeal.RefValue.ref_is_spec,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
